-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x2 : Shape := ⟨2, ![800000, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S800000x2 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S800000x2 : Shape := ⟨2, ![800000, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 60
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S800000x2, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S_, .f32⟩
  | .hbm, ⟨22, _⟩ => ⟨S800000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S1x64, .f32⟩
  | .hbm, ⟨59, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S128x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S5000x1, .f32⟩
  | .local _ .vmem, ⟨23, _⟩ => ⟨S5000x1, .f32⟩
  | .local _ .vmem, ⟨24, _⟩ => ⟨S5000x64, .f32⟩
  | .local _ .vmem, ⟨25, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S800000x2_S2x800000_1_0 : S800000x2.Transposes [1, 0] S2x800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x2 : Shape := ⟨2, ![800000, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x2, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2x800000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S850000, .i32⟩
  | .hbm, ⟨18, _⟩ => ⟨S850000, .i1⟩
  | .hbm, ⟨19, _⟩ => ⟨S_, .i32⟩
  | .hbm, ⟨20, _⟩ => ⟨S850000, .i32⟩
  | .hbm, ⟨21, _⟩ => ⟨S850000, .i32⟩
  | .hbm, ⟨22, _⟩ => ⟨S850000, .i32⟩
  | .hbm, ⟨23, _⟩ => ⟨S850000x1, .i32⟩
  | .hbm, ⟨24, _⟩ => ⟨S_, .f32⟩
  | .hbm, ⟨25, _⟩ => ⟨S850000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call0_cst : Ref sig .tc := ⟨.hbm, 67, rfl⟩
abbrev main_call0_v0 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]

class Facts₀ : Prop where
  transposes_S800000x2_S2x800000_1_0 : S800000x2.Transposes [1, 0] S2x800000
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named.

  @main is three pipelined regions among stretches of host operations.  The generated frame follows the contents
  of every unscoped buffer from the launch through each stretch and each region (the boundary contents `W0 … W6`)
  and ends with every such buffer at `W6`.  The frame claim reads only the argument arrays off that last state; the
  same run read at the result buffer says that the result ends at `W6`'s contents there, which is what region 2's
  write-backs leave in its output array.
-/
import proofs.«129970_j1520418423297_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result buffer ends at the last boundary's
    contents, and the six argument arrays end as launched. -/
theorem run_result : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.GcnRun

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«129970_j1520418423297_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowLayouts.lean ====
/-
  Three re-layouts of a matrix read at an entry, for any element type.

  A [1, b] row broadcast to [a, b] reads, at (p, q), the row's entry q. An array [1, a, b] cast to the matrix
  [a, b] reads, at (p, q), the array at (0, p, q), and the cast back reads, at (0, p, q), the matrix at (p, q):
  a leading unit axis does not move the row-major position.
-/
import Idealize.ShloMosaic.Lib.ValueIdx
import Idealize.ShloMosaic.Lib.Pipeline.Value

noncomputable section

namespace LibRowLayouts

open Idealize.ShloMosaic Idealize.ShloMosaic.ValueIdx

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An array [1, a, b] cast to the matrix [a, b] reads, at (p, q), the array at (0, p, q). -/
theorem shapeCast_drop_unit_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) := by
  refine shapeCast_apply x h _ _ ?_
  rw [Shape.rowMajor_val_three, Shape.rowMajor_val_two]
  show (0 * a + p.val) * b + q.val = p.val * b + q.val
  rw [Nat.zero_mul, Nat.zero_add]

/-- A matrix [a, b] cast to the array [1, a, b] reads, at (0, p, q), the matrix at (p, q). -/
theorem shapeCast_add_unit_apply {α : Type} {a b : ℕ} (x : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ x h (ix3 z p q) = x (ix2 p q) := by
  refine shapeCast_apply x h _ _ ?_
  rw [Shape.rowMajor_val_three, Shape.rowMajor_val_two]
  show p.val * b + q.val = (z.val * a + p.val) * b + q.val
  have hz : z.val = 0 := by have := z.isLt; omega
  rw [hz, Nat.zero_mul, Nat.zero_add]

end LibRowLayouts

end
-- ==== Proof.BodyValues.lean ====
/-
  What each of the three kernel bodies stores, read at one entry, at exact arithmetic.

  Body 0 stores, at row p and column q of its block, (Σ_k x(p,k)·w(k,q)) · d(p): a row of the dense product scaled by
  that row's factor.  Body 1 stores (Σ_k max((a(p,k) + s(p,k))·d(p) + b(k), 0) · w(k,q)) · d(p): the aggregated row plus
  the row's own contribution, scaled, shifted by the bias, clipped at zero, multiplied by the second weight matrix and
  scaled again.  Body 2 stores (a(p,q) + s(p,q))·d(p) + b(q).  A change of float format is the identity here, a
  matrix product into a zero accumulator is the plain sum over the contracted axis, and a column [5000, 1] or a row
  [1, n] spread over a block is read at its one free coordinate.
-/
import proofs.«129970_j1520418423297_2_alg».proof.Proof.Gen.KernelIdeal.Skeleton
import proofs.«129970_j1520418423297_2_alg».proof.Proof.LibMatmulIdx
import proofs.«129970_j1520418423297_2_alg».proof.Proof.LibColumnOps
import proofs.«129970_j1520418423297_2_alg».proof.Proof.LibRowLayouts
import Idealize.ShloMosaic.Lib.ValueIdx
import Idealize.ShloMosaic.Lib.Pipeline.Value
import Idealize.ShloMosaic.PureOps.Ideal.Laws

noncomputable section

open scoped BigOperators

namespace Cert.KernelIdeal.GcnBody

open Cert.KernelIdeal Cert.KernelIdeal.Gen Idealize.ShloMosaic Idealize.ShloMosaic.ValueIdx

/-- The product of a [5000, 128] block with the [128, 128] weights into zero, at (p, q): the sum over the shared axis. -/
theorem matmul128_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  LibMatmulIdx.matmul2_apply dot_S5000x128_S128x128_S5000x128_1_0_0_1_n_n rfl rfl
    (fun j k => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun j k => dot_S5000x128_S128x128_S5000x128_1_0_0_1_n_n.lhsIdx_val_of_single rfl j k)
    (fun j k => dot_S5000x128_S128x128_S5000x128_1_0_0_1_n_n.rhsIdx_val_of_single rfl j k)
    (fun j k => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    none l r (ix2 p q)

/-- The product of a [5000, 128] block with the [128, 64] weights into zero, at (p, q). -/
theorem matmul64_apply (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) :=
  LibMatmulIdx.matmul2_apply dot_S5000x128_S128x64_S5000x64_1_0_0_1_n_n rfl rfl
    (fun j k => by
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl)
    (fun j k => dot_S5000x128_S128x64_S5000x64_1_0_0_1_n_n.lhsIdx_val_of_single rfl j k)
    (fun j k => dot_S5000x128_S128x64_S5000x64_1_0_0_1_n_n.rhsIdx_val_of_single rfl j k)
    (fun j k => by
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
    none l r (ix2 p q)

/-- Body 0 at (p, q): the dense product's entry times the row's factor. -/
theorem body0_apply (x : Vec Ideal S5000x128 .f32) (w : Vec Ideal S128x128 .f32) (d : Vec Ideal S5000x1 .f32)
    (p : Fin 5000) (q : Fin 128) :
    k0_pay1 (F := Ideal) x w d (ix2 p q) = (∑ k : Fin 128, x (ix2 p k) * w (ix2 k q)) * d (ix2 p (0 : Fin 1)) := by
  unfold k0_pay1
  simp only [shapeCast_self]
  rw [mulf_apply, LibColumnOps.broadcastTo_col_apply, matmul128_apply]
  rfl

/-- Body 1 at (p, q). -/
theorem body1_apply (d : Vec Ideal S5000x1 .f32) (a : Vec Ideal S5000x128 .f32) (s : Vec Ideal S5000x128 .f32)
    (b : Vec Ideal S1x128 .f32) (w : Vec Ideal S128x64 .f32) (p : Fin 5000) (q : Fin 64) :
    k1_pay1 (F := Ideal) d a s b w (ix2 p q)
      = (∑ k : Fin 128, max ((a (ix2 p k) + s (ix2 p k)) * d (ix2 p (0 : Fin 1)) + b (ix2 (0 : Fin 1) k))
            (Ideal.ofBits .f32 0x00000000#32) * w (ix2 k q)) * d (ix2 p (0 : Fin 1)) := by
  unfold k1_pay1
  simp only [shapeCast_self]
  rw [mulf_apply, LibColumnOps.broadcastTo_col_apply, matmul64_apply]
  refine congrArg (· * d (ix2 p (0 : Fin 1))) (Finset.sum_congr rfl fun k _ => ?_)
  rw [truncf_apply, truncf_apply, maximumf_apply, addf_apply, mulf_apply, addf_apply,
    LibColumnOps.broadcastTo_col_apply, LibRowLayouts.broadcastTo_row_apply, broadcast_apply]
  rfl

/-- Body 2 at (p, q). -/
theorem body2_apply (d : Vec Ideal S5000x1 .f32) (a : Vec Ideal S5000x64 .f32) (s : Vec Ideal S5000x64 .f32)
    (b : Vec Ideal S1x64 .f32) (p : Fin 5000) (q : Fin 64) :
    k2_pay1 (F := Ideal) d a s b (ix2 p q)
      = (a (ix2 p q) + s (ix2 p q)) * d (ix2 p (0 : Fin 1)) + b (ix2 (0 : Fin 1) q) := by
  unfold k2_pay1
  simp only [shapeCast_self]
  rw [addf_apply, mulf_apply, addf_apply, LibColumnOps.broadcastTo_col_apply, LibRowLayouts.broadcastTo_row_apply]

end Cert.KernelIdeal.GcnBody

end
-- ==== Proof.Region0.lean ====
/-
  Region 0 as one function of the arrays it finds.

  The grid has ten points; point t reads rows 5000·t … 5000·t + 4999 of the feature matrix and of the column of row
  factors, the whole weight matrix, and writes the same rows of its output.  So the output array ends holding, at
  (i, k), the dense product's entry (Σ_l x(i,l)·w(l,k)) times the factor of row i: every row is in exactly the block
  of the point i / 5000, and inside a block the body's value at (p, q) only reads row p of its blocks.
-/
import proofs.«129970_j1520418423297_2_alg».proof.Proof.Gen.KernelIdeal.Frame
import proofs.«129970_j1520418423297_2_alg».proof.Proof.BodyValues

set_option maxRecDepth 16384

noncomputable section

open scoped BigOperators

namespace Cert.KernelIdeal.GcnRegion0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Rows of the dense product x·w, each scaled by its row's factor d(i). -/
def scaledProduct (x : S50000x128.Idx → EReal) (w : S128x128.Idx → EReal) (d : S50000x1.Idx → EReal) :
    S50000x128.Idx → EReal :=
  fun i => (∑ l : Fin 128, x (ix2 (i 0) l) * w (ix2 l (i 1))) * d (ix2 (i 0) (0 : Fin 1))

/-- The index maps over the grid: the row windows all sit at block row t, the weights at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One block: if the three loaded blocks are rows r·5000 … of x and d and all of w, the body's value at j is the
    scaled product at the array index i that j lands on. -/
theorem block_value (x : S50000x128.Idx → EReal) (w : S128x128.Idx → EReal) (d : S50000x1.Idx → EReal)
    (bx : Vec Ideal S5000x128 .f32) (bw : Vec Ideal S128x128 .f32) (bd : Vec Ideal S5000x1 .f32)
    (r : ℕ) (hr : r < 10)
    (hx : ∀ (p : Fin 5000) (l : Fin 128), bx (ix2 p l) = x (ix2 ⟨r * 5000 + p.val, by omega⟩ l))
    (hw : ∀ (l : Fin 128) (q : Fin 128), bw (ix2 l q) = w (ix2 l q))
    (hd : ∀ (p : Fin 5000), bd (ix2 p (0 : Fin 1)) = d (ix2 ⟨r * 5000 + p.val, by omega⟩ (0 : Fin 1)))
    (j : S5000x128.Idx) (i : S50000x128.Idx) (hi0 : (i 0).val = r * 5000 + (j 0).val) (hi1 : (i 1).val = (j 1).val) :
    k0_pay1 (F := Ideal) bx bw bd j = scaledProduct x w d i := by
  obtain ⟨p, q, rfl⟩ : ∃ (p : Fin 5000) (q : Fin 128), j = ix2 p q := ⟨j 0, j 1, eq_ix2 j⟩
  rw [GcnBody.body0_apply]
  unfold scaledProduct
  have hp : p.val < 5000 := p.isLt
  have e0 : i 0 = (⟨r * 5000 + p.val, by omega⟩ : Fin 50000) := Fin.ext hi0
  have e1 : i 1 = q := Fin.ext hi1
  rw [e0, e1, hd]
  refine congrArg (· * _) (Finset.sum_congr rfl fun l _ => ?_)
  rw [hx, hw]

/-- What point t writes back is block t of the scaled product of the arrays the region finds. -/
theorem flushed (c : Dev nD) (t : Fin cfg0.N) :
    (dat0 V c).flushed 3 t = ((cfg0.win 3).blk t).view.read (Elt Ideal)
      (scaledProduct (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  obtain ⟨e0, e1, e2, e3, e4, e5, e6, e7⟩ := index_maps t
  have ht : t.val < 10 := lt_of_lt_of_eq t.isLt N_0
  funext j
  refine block_value _ _ _ _ _ _ t.val ht ?_ ?_ ?_ j _ ?_ ?_
  · intro p l
    show V c (Pipeline.arrRef spec0 0) (((cfg0.win 0).blk t).view.emb (ix2 p l)) = _
    refine congrArg (V c (Pipeline.arrRef spec0 0)) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * l.val = l.val; omega
  · intro l q
    show V c (Pipeline.arrRef spec0 1) (((cfg0.win 1).blk t).view.emb (ix2 l q)) = _
    refine congrArg (V c (Pipeline.arrRef spec0 1)) (funext fun a => Fin.ext ?_)
    match a with
    | ⟨0, _⟩ => show win0_1.index t (0 : Fin 2) * 128 + 1 * l.val = l.val; omega
    | ⟨1, _⟩ => show win0_1.index t (1 : Fin 2) * 128 + 1 * q.val = q.val; omega
  · intro p
    show V c (Pipeline.arrRef spec0 2) (((cfg0.win 2).blk t).view.emb (ix2 p (0 : Fin 1))) = _
    refine congrArg (V c (Pipeline.arrRef spec0 2)) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  · show win0_3.index t (0 : Fin 2) * 5000 + 1 * (j 0).val = t.val * 5000 + (j 0).val; omega
  · show win0_3.index t (1 : Fin 2) * 128 + 1 * (j 1).val = (j 1).val; omega

/-- An index of the output array is in point t's block iff each coordinate is in the block's range. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- Row i of the output is written by the point i / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by have hN : cfg0.N = 10 := N_0; omega⟩
  obtain ⟨e0, e1, e2, e3, e4, e5, e6, e7⟩ := index_maps t
  have htv : t.val = (i 0).val / 5000 := rfl
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the scaled product of the arrays the region found. -/
theorem final (c : Dev nD) :
    (dat0 V c).arrAt 3 cfg0.N
      = scaledProduct (V c (Pipeline.arrRef spec0 0)) (V c (Pipeline.arrRef spec0 1)) (V c (Pipeline.arrRef spec0 2)) :=
  (dat0 V c).arrAt_eq_of_cover 3 _ (fun t _ => flushed V c t) covered

end Cert.KernelIdeal.GcnRegion0

end
-- ==== Proof.Region1.lean ====
/-
  Region 1 as one function of the arrays it finds.

  Point t reads rows 5000·t … of the aggregated rows, of the rows themselves and of the column of row factors, the
  whole bias row and the whole second weight matrix, and writes the same rows of its output.  The output array ends
  holding, at (i, j), (Σ_k max((a(i,k) + s(i,k))·d(i) + b(k), 0) · w(k,j)) · d(i).
-/
import proofs.«129970_j1520418423297_2_alg».proof.Proof.Gen.KernelIdeal.Frame
import proofs.«129970_j1520418423297_2_alg».proof.Proof.BodyValues

set_option maxRecDepth 16384

noncomputable section

open scoped BigOperators

namespace Cert.KernelIdeal.GcnRegion1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The hidden layer finished row by row (aggregate plus own row, scaled, biased, clipped at zero), multiplied by
    the second weight matrix and scaled by the row's factor again. -/
def hiddenThenProduct (a s : S50000x128.Idx → EReal) (b : S1x128.Idx → EReal) (w : S128x64.Idx → EReal)
    (d : S50000x1.Idx → EReal) : S50000x64.Idx → EReal :=
  fun i => (∑ k : Fin 128, max ((a (ix2 (i 0) k) + s (ix2 (i 0) k)) * d (ix2 (i 0) (0 : Fin 1)) + b (ix2 (0 : Fin 1) k))
      (Ideal.ofBits .f32 0x00000000#32) * w (ix2 k (i 1))) * d (ix2 (i 0) (0 : Fin 1))

/-- The index maps over the grid: the row windows sit at block row t, the bias row and the weights at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- One block: with the loaded blocks rows r·5000 … of a, s, d and all of b and w, the body's value at j is the
    function above at the array index i that j lands on. -/
theorem block_value (a s : S50000x128.Idx → EReal) (b : S1x128.Idx → EReal) (w : S128x64.Idx → EReal)
    (d : S50000x1.Idx → EReal)
    (bd : Vec Ideal S5000x1 .f32) (ba bs : Vec Ideal S5000x128 .f32) (bb : Vec Ideal S1x128 .f32) (bw : Vec Ideal S128x64 .f32)
    (r : ℕ) (hr : r < 10)
    (ha : ∀ (p : Fin 5000) (k : Fin 128), ba (ix2 p k) = a (ix2 ⟨r * 5000 + p.val, by omega⟩ k))
    (hs : ∀ (p : Fin 5000) (k : Fin 128), bs (ix2 p k) = s (ix2 ⟨r * 5000 + p.val, by omega⟩ k))
    (hb : ∀ (k : Fin 128), bb (ix2 (0 : Fin 1) k) = b (ix2 (0 : Fin 1) k))
    (hw : ∀ (k : Fin 128) (q : Fin 64), bw (ix2 k q) = w (ix2 k q))
    (hd : ∀ (p : Fin 5000), bd (ix2 p (0 : Fin 1)) = d (ix2 ⟨r * 5000 + p.val, by omega⟩ (0 : Fin 1)))
    (j : S5000x64.Idx) (i : S50000x64.Idx) (hi0 : (i 0).val = r * 5000 + (j 0).val) (hi1 : (i 1).val = (j 1).val) :
    k1_pay1 (F := Ideal) bd ba bs bb bw j = hiddenThenProduct a s b w d i := by
  obtain ⟨p, q, rfl⟩ : ∃ (p : Fin 5000) (q : Fin 64), j = ix2 p q := ⟨j 0, j 1, eq_ix2 j⟩
  rw [GcnBody.body1_apply]
  unfold hiddenThenProduct
  have hp : p.val < 5000 := p.isLt
  have e0 : i 0 = (⟨r * 5000 + p.val, by omega⟩ : Fin 50000) := Fin.ext hi0
  have e1 : i 1 = q := Fin.ext hi1
  rw [e0, e1, hd]
  refine congrArg (· * _) (Finset.sum_congr rfl fun k _ => ?_)
  rw [ha, hs, hb, hw]

/-- What point t writes back is block t of that function of the arrays the region finds. -/
theorem flushed (c : Dev nD) (t : Fin cfg1.N) :
    (dat1 V c).flushed 5 t = ((cfg1.win 5).blk t).view.read (Elt Ideal)
      (hiddenThenProduct (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets,
    View.ld_unit_zero (S := S128x64) zero_offsets, View.ld_unit_zero (S := S5000x1) zero_offsets]
  obtain ⟨e0, e1, e2, e3, e4, e5, e6, e7, e8, e9, e10, e11⟩ := index_maps t
  have ht : t.val < 10 := lt_of_lt_of_eq t.isLt N_1
  funext j
  refine block_value _ _ _ _ _ _ _ _ _ _ t.val ht ?_ ?_ ?_ ?_ ?_ j _ ?_ ?_
  · intro p k
    show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro p k
    show V c (Pipeline.arrRef spec1 1) (((cfg1.win 1).blk t).view.emb (ix2 p k)) = _
    refine congrArg (V c (Pipeline.arrRef spec1 1)) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · intro k
    show V c (Pipeline.arrRef spec1 2) (((cfg1.win 2).blk t).view.emb (ix2 (0 : Fin 1) k)) = _
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · intro k q
    show V c (Pipeline.arrRef spec1 3) (((cfg1.win 3).blk t).view.emb (ix2 k q)) = _
    refine congrArg (V c (Pipeline.arrRef spec1 3)) (funext fun a => Fin.ext ?_)
    match a with
    | ⟨0, _⟩ => show win1_3.index t (0 : Fin 2) * 128 + 1 * k.val = k.val; omega
    | ⟨1, _⟩ => show win1_3.index t (1 : Fin 2) * 64 + 1 * q.val = q.val; omega
  · intro p
    show V c (Pipeline.arrRef spec1 4) (((cfg1.win 4).blk t).view.emb (ix2 p (0 : Fin 1))) = _
    refine congrArg (V c (Pipeline.arrRef spec1 4)) (funext fun a => Fin.ext ?_)
    match a with
    | ⟨0, _⟩ => show win1_4.index t (0 : Fin 2) * 5000 + 1 * p.val = t.val * 5000 + p.val; omega
    | ⟨1, _⟩ => show win1_4.index t (1 : Fin 2) * 1 + 1 * 0 = 0; omega
  · show win1_5.index t (0 : Fin 2) * 5000 + 1 * (j 0).val = t.val * 5000 + (j 0).val; omega
  · show win1_5.index t (1 : Fin 2) * 64 + 1 * (j 1).val = (j 1).val; omega

/-- An index of the output array is in point t's block iff each coordinate is in the block's range. -/
theorem mem_block (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v30).slice (win1_5.rect t)).set ↔ _
  rw [View.set_slice_whole, Rect.mem_set_unit]
  exact Iff.rfl

/-- Row i of the output is written by the point i / 5000. -/
theorem covered (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 5000, by have hN : cfg1.N = 10 := N_1; omega⟩
  obtain ⟨e0, e1, e2, e3, e4, e5, e6, e7, e8, e9, e10, e11⟩ := index_maps t
  have htv : t.val = (i 0).val / 5000 := rfl
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the region. -/
theorem final (c : Dev nD) :
    (dat1 V c).arrAt 5 cfg1.N
      = hiddenThenProduct (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed V c t) covered

end Cert.KernelIdeal.GcnRegion1

end
-- ==== Proof.Region2.lean ====
/-
  Region 2 as one function of the arrays it finds.

  Point t reads rows 5000·t … of the aggregated rows, of the rows themselves and of the column of row factors and
  the whole bias row, and writes the same rows of its output: (a(i,j) + s(i,j))·d(i) + b(j) at (i, j).
-/
import proofs.«129970_j1520418423297_2_alg».proof.Proof.Gen.KernelIdeal.Frame
import proofs.«129970_j1520418423297_2_alg».proof.Proof.BodyValues

set_option maxRecDepth 16384

noncomputable section

open scoped BigOperators

namespace Cert.KernelIdeal.GcnRegion2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Aggregate plus own row, scaled by the row's factor, plus the bias. -/
def scaledPlusBias (a s : S50000x64.Idx → EReal) (b : S1x64.Idx → EReal) (d : S50000x1.Idx → EReal) :
    S50000x64.Idx → EReal :=
  fun i => (a (ix2 (i 0) (i 1)) + s (ix2 (i 0) (i 1))) * d (ix2 (i 0) (0 : Fin 1)) + b (ix2 (0 : Fin 1) (i 1))

/-- The index maps over the grid. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- One block. -/
theorem block_value (a s : S50000x64.Idx → EReal) (b : S1x64.Idx → EReal) (d : S50000x1.Idx → EReal)
    (bd : Vec Ideal S5000x1 .f32) (ba bs : Vec Ideal S5000x64 .f32) (bb : Vec Ideal S1x64 .f32)
    (r : ℕ) (hr : r < 10)
    (ha : ∀ (p : Fin 5000) (q : Fin 64), ba (ix2 p q) = a (ix2 ⟨r * 5000 + p.val, by omega⟩ q))
    (hs : ∀ (p : Fin 5000) (q : Fin 64), bs (ix2 p q) = s (ix2 ⟨r * 5000 + p.val, by omega⟩ q))
    (hb : ∀ (q : Fin 64), bb (ix2 (0 : Fin 1) q) = b (ix2 (0 : Fin 1) q))
    (hd : ∀ (p : Fin 5000), bd (ix2 p (0 : Fin 1)) = d (ix2 ⟨r * 5000 + p.val, by omega⟩ (0 : Fin 1)))
    (j : S5000x64.Idx) (i : S50000x64.Idx) (hi0 : (i 0).val = r * 5000 + (j 0).val) (hi1 : (i 1).val = (j 1).val) :
    k2_pay1 (F := Ideal) bd ba bs bb j = scaledPlusBias a s b d i := by
  obtain ⟨p, q, rfl⟩ : ∃ (p : Fin 5000) (q : Fin 64), j = ix2 p q := ⟨j 0, j 1, eq_ix2 j⟩
  rw [GcnBody.body2_apply]
  unfold scaledPlusBias
  have hp : p.val < 5000 := p.isLt
  have e0 : i 0 = (⟨r * 5000 + p.val, by omega⟩ : Fin 50000) := Fin.ext hi0
  have e1 : i 1 = q := Fin.ext hi1
  rw [e0, e1, hd, ha, hs, hb]

/-- What point t writes back is block t of that function of the arrays the region finds. -/
theorem flushed (c : Dev nD) (t : Fin cfg2.N) :
    (dat2 V c).flushed 4 t = ((cfg2.win 4).blk t).view.read (Elt Ideal)
      (scaledPlusBias (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero zero_offsets]
  simp only [View.ld_unit_zero (S := S5000x64) zero_offsets, View.ld_unit_zero (S := S1x64) zero_offsets,
    View.ld_unit_zero (S := S5000x1) zero_offsets]
  obtain ⟨e0, e1, e2, e3, e4, e5, e6, e7, e8, e9⟩ := index_maps t
  have ht : t.val < 10 := lt_of_lt_of_eq t.isLt N_2
  funext j
  refine block_value _ _ _ _ _ _ _ _ t.val ht ?_ ?_ ?_ ?_ j _ ?_ ?_
  · intro p q
    show V c (Pipeline.arrRef spec2 0) (((cfg2.win 0).blk t).view.emb (ix2 p q)) = _
    refine congrArg (V c (Pipeline.arrRef spec2 0)) (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * q.val = q.val; omega
  · intro p q
    show V c (Pipeline.arrRef spec2 1) (((cfg2.win 1).blk t).view.emb (ix2 p q)) = _
    refine congrArg (V c (Pipeline.arrRef spec2 1)) (funext fun a => Fin.ext ?_)
    match a with
    | ⟨0, _⟩ => show win2_1.index t (0 : Fin 2) * 5000 + 1 * p.val = t.val * 5000 + p.val; omega
    | ⟨1, _⟩ => show win2_1.index t (1 : Fin 2) * 64 + 1 * q.val = q.val; omega
  · intro q
    show V c (Pipeline.arrRef spec2 2) (((cfg2.win 2).blk t).view.emb (ix2 (0 : Fin 1) q)) = _
    refine congrArg (V c (Pipeline.arrRef spec2 2)) (funext fun a => Fin.ext ?_)
    match a with
    | ⟨0, _⟩ => show win2_2.index t (0 : Fin 2) * 1 + 1 * 0 = 0; omega
    | ⟨1, _⟩ => show win2_2.index t (1 : Fin 2) * 64 + 1 * q.val = q.val; omega
  · intro p
    show V c (Pipeline.arrRef spec2 3) (((cfg2.win 3).blk t).view.emb (ix2 p (0 : Fin 1))) = _
    refine congrArg (V c (Pipeline.arrRef spec2 3)) (funext fun a => Fin.ext ?_)
    match a with
    | ⟨0, _⟩ => show win2_3.index t (0 : Fin 2) * 5000 + 1 * p.val = t.val * 5000 + p.val; omega
    | ⟨1, _⟩ => show win2_3.index t (1 : Fin 2) * 1 + 1 * 0 = 0; omega
  · show win2_4.index t (0 : Fin 2) * 5000 + 1 * (j 0).val = t.val * 5000 + (j 0).val; omega
  · show win2_4.index t (1 : Fin 2) * 64 + 1 * (j 1).val = (j 1).val; omega

/-- An index of the output array is in point t's block iff each coordinate is in the block's range. -/
theorem mem_block (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v42).slice (win2_4.rect t)).set ↔ _
  rw [View.set_slice_whole, Rect.mem_set_unit]
  exact Iff.rfl

/-- Row i of the output is written by the point i / 5000. -/
theorem covered (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  let t : Fin cfg2.N := ⟨(i 0).val / 5000, by have hN : cfg2.N = 10 := N_2; omega⟩
  obtain ⟨e0, e1, e2, e3, e4, e5, e6, e7, e8, e9⟩ := index_maps t
  have htv : t.val = (i 0).val / 5000 := rfl
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The output array after the region. -/
theorem final (c : Dev nD) :
    (dat2 V c).arrAt 4 cfg2.N
      = scaledPlusBias (V c (Pipeline.arrRef spec2 0)) (V c (Pipeline.arrRef spec2 1)) (V c (Pipeline.arrRef spec2 2))
          (V c (Pipeline.arrRef spec2 3)) :=
  (dat2 V c).arrAt_eq_of_cover 4 _ (fun t _ => flushed V c t) covered

end Cert.KernelIdeal.GcnRegion2

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.LibIdealFinite.lean ====
/-
  A finiteness calculus for the exact-arithmetic reading of a program's operations.

  At exact arithmetic a float value is an extended real. Sums and products of extended reals commute and
  associate, but a product distributes over a sum only away from the infinities; so a matrix computation can
  be re-associated once every entry is known to be a real number. This file proves that the operations a
  host program is made of keep entries real ("finite": neither infinity):

  * elementwise sums, differences, products and maxima of finite entries are finite;
  * a re-indexing (broadcast, transpose, slice, reshape, concatenation) only moves entries;
  * a contraction (a finite sum of products) and a sum along axes of finite entries are finite, and a sum of
    non-negative entries from zero is non-negative;
  * a quotient of a finite entry by a nonzero real is finite, and non-negative if the entry is non-negative
    and the divisor positive;
  * the reciprocal square root of a positive real is a positive real;
  * the exponential of a real is a positive real;
  * a maximum along a non-empty axis of finite entries, started from minus infinity, is finite;
  * a row of positive reals divided by its sum is a row of reals (the normalisation of a softmax).

  Nothing here mentions a particular program.
-/
import Idealize.ShloMosaic.PureOps.Ideal.Laws
import proofs.«129970_j1520418423297_2_alg».proof.Proof.LibERealMatrix

noncomputable section

namespace LibIdealFinite

open Idealize.ShloMosaic LibERealMatrix

/-! ### Finite extended reals -/

theorem fin_zero : Fin' (0 : EReal) := by
  have h := Fin'.coe 0
  rwa [EReal.coe_zero] at h

theorem fin_neg {x : EReal} (hx : Fin' x) : Fin' (-x) := by
  obtain ⟨a, rfl⟩ := hx.exists_real
  rw [← EReal.coe_neg]; exact Fin'.coe _

theorem fin_sub {x y : EReal} (hx : Fin' x) (hy : Fin' y) : Fin' (x - y) := by
  obtain ⟨a, rfl⟩ := hx.exists_real
  obtain ⟨b, rfl⟩ := hy.exists_real
  rw [← EReal.coe_sub]; exact Fin'.coe _

theorem fin_max {x y : EReal} (hx : Fin' x) (hy : Fin' y) : Fin' (max x y) := by
  rcases max_choice x y with h | h <;> rw [h] <;> assumption

theorem fin_min {x y : EReal} (hx : Fin' x) (hy : Fin' y) : Fin' (min x y) := by
  rcases min_choice x y with h | h <;> rw [h] <;> assumption

/-- A finite extended real that is positive is the image of a positive real. -/
theorem fin_exists_pos_real {x : EReal} (hx : Fin' x) (h0 : 0 < x) : ∃ r : ℝ, 0 < r ∧ x = (r : EReal) := by
  obtain ⟨a, rfl⟩ := hx.exists_real
  exact ⟨a, EReal.coe_pos.mp h0, rfl⟩

/-- A finite extended real that is non-negative is the image of a non-negative real. -/
theorem fin_exists_nonneg_real {x : EReal} (hx : Fin' x) (h0 : 0 ≤ x) : ∃ r : ℝ, 0 ≤ r ∧ x = (r : EReal) := by
  obtain ⟨a, rfl⟩ := hx.exists_real
  exact ⟨a, EReal.coe_nonneg.mp h0, rfl⟩

/-- The square of a finite extended real is non-negative. -/
theorem fin_mul_self_nonneg {x : EReal} (hx : Fin' x) : 0 ≤ x * x := by
  obtain ⟨a, rfl⟩ := hx.exists_real
  rw [← EReal.coe_mul]; exact EReal.coe_nonneg.mpr (mul_self_nonneg a)

/-- The sum of a non-negative and a positive finite extended real is positive. -/
theorem add_pos_of_nonneg_of_pos' {x y : EReal} (hx : 0 ≤ x) (hy : 0 < y) : 0 < x + y :=
  lt_of_lt_of_le hy (le_add_of_nonneg_left hx)

/-! ### Vectors with finite entries -/

/-- Every entry of the vector is a real number. -/
def AllFin {s : Shape} (v : s.Idx → EReal) : Prop := ∀ i, Fin' (v i)

section Elementwise
variable {s : Shape} {φ : FTy}

theorem allFin_addf {a b : FVec Ideal s φ} (ha : AllFin a) (hb : AllFin b) : AllFin (addf (F := Ideal) a b) :=
  fun i => (ha i).add (hb i)

theorem allFin_subf {a b : FVec Ideal s φ} (ha : AllFin a) (hb : AllFin b) : AllFin (subf (F := Ideal) a b) :=
  fun i => fin_sub (ha i) (hb i)

theorem allFin_mulf {a b : FVec Ideal s φ} (ha : AllFin a) (hb : AllFin b) : AllFin (mulf (F := Ideal) a b) :=
  fun i => (ha i).mul (hb i)

theorem allFin_maximumf {a b : FVec Ideal s φ} (ha : AllFin a) (hb : AllFin b) :
    AllFin (maximumf (F := Ideal) a b) :=
  fun i => fin_max (ha i) (hb i)

theorem allFin_minimumf {a b : FVec Ideal s φ} (ha : AllFin a) (hb : AllFin b) :
    AllFin (minimumf (F := Ideal) a b) :=
  fun i => fin_min (ha i) (hb i)

theorem allFin_negf {a : FVec Ideal s φ} (ha : AllFin a) : AllFin (negf (F := Ideal) a) :=
  fun i => fin_neg (ha i)

/-- The entries of an elementwise sum, difference, product and maximum, spelled out. -/
theorem addf_apply (a b : FVec Ideal s φ) (i : s.Idx) : addf (F := Ideal) a b i = a i + b i := rfl
theorem subf_apply (a b : FVec Ideal s φ) (i : s.Idx) : subf (F := Ideal) a b i = a i - b i := rfl
theorem mulf_apply (a b : FVec Ideal s φ) (i : s.Idx) : mulf (F := Ideal) a b i = a i * b i := rfl
theorem maximumf_apply (a b : FVec Ideal s φ) (i : s.Idx) : maximumf (F := Ideal) a b i = max (a i) (b i) := rfl

/-- A square of finite entries has non-negative entries. -/
theorem mulf_self_nonneg {d : FVec Ideal s φ} (hd : AllFin d) (i : s.Idx) : 0 ≤ mulf (F := Ideal) d d i :=
  fin_mul_self_nonneg (hd i)

/-- A maximum against a non-negative vector (a rectifier's zero) is non-negative. -/
theorem maximumf_nonneg_right (a b : FVec Ideal s φ) (hb : ∀ i, 0 ≤ b i) (i : s.Idx) :
    0 ≤ maximumf (F := Ideal) a b i :=
  le_max_of_le_right (hb i)

theorem maximumf_nonneg_left (a b : FVec Ideal s φ) (ha : ∀ i, 0 ≤ a i) (i : s.Idx) :
    0 ≤ maximumf (F := Ideal) a b i :=
  le_max_of_le_left (ha i)

end Elementwise

/-! ### Contractions and sums along axes -/

section Contract

/-- A host contraction of finite operands is finite: each entry is a finite sum of products. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := by
  intro j
  show Fin' (FloatOps.dotGeneral (F := Ideal) d prec .single l r j)
  rw [Ideal.dotGeneral_apply]
  exact Fin'.sum _ _ fun k => (hl _).mul (hr _)

/-- The same from a description of the entries as sums of products, whatever the index type of the sum. -/
theorem allFin_of_sum_mul {sl sr so : Shape} {κ : Type*} [Fintype κ] {l : sl.Idx → EReal} {r : sr.Idx → EReal}
    (res : so.Idx → EReal) (li : so.Idx → κ → sl.Idx) (ri : so.Idx → κ → sr.Idx)
    (h : ∀ i, res i = ∑ k, l (li i k) * r (ri i k)) (hl : AllFin l) (hr : AllFin r) : AllFin res := by
  intro i
  rw [h i]
  exact Fin'.sum _ _ fun k => (hl _).mul (hr _)

/-- A kernel's contraction onto a finite accumulator is finite as well. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (matmul (F := Ideal) d prec l r acc) := by
  intro j
  show Fin' (FloatOps.matmul (F := Ideal) d prec l r acc j)
  rw [Ideal.matmul_apply]
  exact (hacc j).add (Fin'.sum _ _ fun k => (hl _).mul (hr _))

variable {s t u : Shape} {φ : FTy} {axes : List (Fin s.rank)}

/-- An entry of a host sum along axes: the initial value plus the sum of the entries that reduce to it. -/
theorem reduceAdd_apply (x : FVec Ideal s φ) (init : u.Idx → Ideal φ) (h : s.ReducesTo axes t) (hu : 0 < u.numel)
    (j : t.Idx) :
    Host.reduceAdd (F := Ideal) x init h hu j
      = init (Shape.Idx.first hu) + ∑ i ∈ Finset.univ.filter (fun i => h.drop i = j), x i := rfl

/-- A host sum along axes of finite entries, from a finite initial value, is finite. -/
theorem allFin_reduceAdd {x : FVec Ideal s φ} {init : u.Idx → Ideal φ} (h : s.ReducesTo axes t) (hu : 0 < u.numel)
    (hx : AllFin x) (hinit : Fin' (init (Shape.Idx.first hu))) :
    AllFin (Host.reduceAdd (F := Ideal) x init h hu) := by
  intro j
  rw [reduceAdd_apply]
  exact hinit.add (Fin'.sum _ _ fun i => hx i)

/-- A host sum along axes of non-negative entries, from zero, is non-negative. -/
theorem reduceAdd_nonneg {x : FVec Ideal s φ} {init : u.Idx → Ideal φ} (h : s.ReducesTo axes t) (hu : 0 < u.numel)
    (hx : ∀ i, 0 ≤ x i) (hinit : init (Shape.Idx.first hu) = 0) (j : t.Idx) :
    0 ≤ Host.reduceAdd (F := Ideal) x init h hu j := by
  rw [reduceAdd_apply, hinit, zero_add]
  exact Finset.sum_nonneg fun i _ => hx i

/-- A host sum along axes of positive entries, from zero, is positive wherever some entry reduces to the index. -/
theorem reduceAdd_pos {x : FVec Ideal s φ} {init : u.Idx → Ideal φ} (h : s.ReducesTo axes t) (hu : 0 < u.numel)
    (hx : ∀ i, 0 < x i) (hinit : init (Shape.Idx.first hu) = 0) (j : t.Idx) (hj : ∃ i, h.drop i = j) :
    0 < Host.reduceAdd (F := Ideal) x init h hu j := by
  rw [reduceAdd_apply, hinit, zero_add]
  obtain ⟨i₀, hi₀⟩ := hj
  have hmem : i₀ ∈ Finset.univ.filter (fun i => h.drop i = j) := Finset.mem_filter.2 ⟨Finset.mem_univ _, hi₀⟩
  rw [← Finset.add_sum_erase _ _ hmem]
  exact lt_of_lt_of_le (hx i₀) (le_add_of_nonneg_right (Finset.sum_nonneg fun i _ => (hx i).le))

/-- Along ONE axis of positive extent every result index has an entry reducing to it. -/
theorem exists_drop_eq {a : Fin s.rank} (h' : s.ReducesTo [a] t) (h : s.Reduces [a] t) (ha : 0 < s.size a) (j : t.Idx) :
    ∃ i, h'.drop i = j :=
  ⟨h.lift j ⟨0, ha⟩, by rw [Shape.ReducesTo.drop_eq_drop h' h]; exact h.drop_lift j _⟩

end Contract

/-! ### Re-indexings: the entries of the result are entries of the operand -/

section Reindex

/-- Every entry of `b` is an entry of `w`. What a broadcast, a transpose, a slice or a reshape does. -/
def EntriesOf {ι κ α : Type*} (b : ι → α) (w : κ → α) : Prop := ∀ i, ∃ j, b i = w j

theorem EntriesOf.refl {ι α : Type*} (w : ι → α) : EntriesOf w w := fun i => ⟨i, rfl⟩

theorem EntriesOf.trans {ι κ μ α : Type*} {a : ι → α} {b : κ → α} {c : μ → α} (hab : EntriesOf a b)
    (hbc : EntriesOf b c) : EntriesOf a c := fun i => by
  obtain ⟨j, hj⟩ := hab i
  obtain ⟨k, hk⟩ := hbc j
  exact ⟨k, hj.trans hk⟩

/-- Any property of single entries passes from the operand to the result. -/
theorem EntriesOf.forall {ι κ α : Type*} {b : ι → α} {w : κ → α} (h : EntriesOf b w) (P : α → Prop)
    (hw : ∀ j, P (w j)) (i : ι) : P (b i) := by
  obtain ⟨j, hj⟩ := h i
  rw [hj]; exact hw j

variable {s t : Shape} {α : Type}

theorem entriesOf_broadcastInDim (t : Shape) (dims : Fin s.rank → Fin t.rank) (h : s.BroadcastsInDim t dims)
    (x : s.Idx → α) : EntriesOf (broadcastInDim t dims h x) x := fun _ => ⟨_, rfl⟩

theorem entriesOf_broadcastTo (t : Shape) (x : s.Idx → α) (h : s.Broadcasts t) : EntriesOf (broadcastTo t x h) x :=
  fun _ => ⟨_, rfl⟩

theorem entriesOf_transpose (t : Shape) (perm : List (Fin s.rank)) (x : s.Idx → α) (h : s.Transposes perm t) :
    EntriesOf (transpose t perm x h) x := fun _ => ⟨_, rfl⟩

theorem entriesOf_shapeCast (t : Shape) (x : s.Idx → α) (h : s.ShapeCasts t) : EntriesOf (shapeCast t x h) x :=
  fun _ => ⟨_, rfl⟩

theorem entriesOf_extractStridedSlice (t : Shape) (off : Fin s.rank → Nat) (x : s.Idx → α) (h : s.Slices off t) :
    EntriesOf (extractStridedSlice t off x h) x := fun _ => ⟨_, rfl⟩

theorem entriesOf_hostSlice (t : Shape) (start strides : Fin s.rank → Nat) (x : s.Idx → α)
    (h : s.SlicesBy start strides t) : EntriesOf (Host.slice t start strides x h) x := fun _ => ⟨_, rfl⟩

/-- Every entry of a concatenation is an entry of one of the pieces. -/
theorem concatenate_entry (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem allFin_of_entriesOf {ι : Type*} {b : s.Idx → EReal} {w : ι → EReal} (h : EntriesOf b w)
    (hw : ∀ j, Fin' (w j)) : AllFin b := h.forall Fin' hw

theorem allFin_broadcastInDim (t : Shape) (dims : Fin s.rank → Fin t.rank) (h : s.BroadcastsInDim t dims)
    {x : s.Idx → EReal} (hx : AllFin x) : AllFin (broadcastInDim t dims h x) := fun _ => hx _

theorem allFin_broadcastTo (t : Shape) {x : s.Idx → EReal} (h : s.Broadcasts t) (hx : AllFin x) :
    AllFin (broadcastTo t x h) := fun _ => hx _

theorem allFin_transpose (t : Shape) (perm : List (Fin s.rank)) {x : s.Idx → EReal} (h : s.Transposes perm t)
    (hx : AllFin x) : AllFin (transpose t perm x h) := fun _ => hx _

theorem allFin_shapeCast (t : Shape) {x : s.Idx → EReal} (h : s.ShapeCasts t) (hx : AllFin x) :
    AllFin (shapeCast t x h) := fun _ => hx _

theorem allFin_extractStridedSlice (t : Shape) (off : Fin s.rank → Nat) {x : s.Idx → EReal} (h : s.Slices off t)
    (hx : AllFin x) : AllFin (extractStridedSlice t off x h) := fun _ => hx _

theorem allFin_hostSlice (t : Shape) (start strides : Fin s.rank → Nat) {x : s.Idx → EReal}
    (h : s.SlicesBy start strides t) (hx : AllFin x) : AllFin (Host.slice t start strides x h) := fun _ => hx _

/-- A concatenation of vectors with finite entries has finite entries. -/
theorem allFin_concatenate (t : Shape) (a : Fin t.rank) (xs : List ((s : Shape) × (s.Idx → EReal)))
    (h : Shape.Concatenates (xs.map (·.1)) t a) (hxs : ∀ p ∈ xs, AllFin p.2) : AllFin (concatenate t a xs h) := by
  intro j
  obtain ⟨p, hp, i, hi⟩ := concatenate_entry t a xs h j
  rw [hi]; exact hxs p hp i

/-- The concatenation of two pieces. -/
theorem allFin_concatenate₂ (t : Shape) (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllFin x₁) (h₂ : AllFin x₂) : AllFin (concatenate t a [⟨s₁, x₁⟩, ⟨s₂, x₂⟩] h) := by
  refine allFin_concatenate t a _ h fun p hp => ?_
  rcases List.mem_cons.1 hp with rfl | hp
  · exact h₁
  · rcases List.mem_cons.1 hp with rfl | hp
    · exact h₂
    · exact absurd hp (List.not_mem_nil)

/-- Positivity, non-negativity and being nonzero pass through a broadcast as well. -/
theorem broadcastInDim_pos (t : Shape) (dims : Fin s.rank → Fin t.rank) (h : s.BroadcastsInDim t dims)
    {x : s.Idx → EReal} (hx : ∀ i, 0 < x i) (j : t.Idx) : 0 < broadcastInDim t dims h x j := hx _

theorem broadcastInDim_nonneg (t : Shape) (dims : Fin s.rank → Fin t.rank) (h : s.BroadcastsInDim t dims)
    {x : s.Idx → EReal} (hx : ∀ i, 0 ≤ x i) (j : t.Idx) : 0 ≤ broadcastInDim t dims h x j := hx _

theorem broadcastInDim_ne_zero (t : Shape) (dims : Fin s.rank → Fin t.rank) (h : s.BroadcastsInDim t dims)
    {x : s.Idx → EReal} (hx : ∀ i, x i ≠ 0) (j : t.Idx) : broadcastInDim t dims h x j ≠ 0 := hx _

/-- A broadcast of a vector all of whose entries are one value has that value everywhere. -/
theorem broadcastInDim_eq_const (t : Shape) (dims : Fin s.rank → Fin t.rank) (h : s.BroadcastsInDim t dims)
    {x : s.Idx → α} {c : α} (hx : ∀ i, x i = c) (j : t.Idx) : broadcastInDim t dims h x j = c := hx _

end Reindex

/-! ### Quotients, reciprocal square roots, exponentials -/

section Scalars

/-- The quotient of a finite extended real by a nonzero finite one is finite. -/
theorem fin_div {x y : EReal} (hx : Fin' x) (hy : Fin' y) (h0 : y ≠ 0) : Fin' (Ideal.div x y) := by
  obtain ⟨a, rfl⟩ := hx.exists_real
  obtain ⟨b, rfl⟩ := hy.exists_real
  have hb : b ≠ 0 := fun h => h0 (by rw [h, EReal.coe_zero])
  rw [Ideal.div_coe hb, ← EReal.coe_mul]; exact Fin'.coe _

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem div_nonneg_of_fin {x y : EReal} (hx : Fin' x) (hy : Fin' y) (hx0 : 0 ≤ x) (hy0 : 0 < y) :
    0 ≤ Ideal.div x y := by
  obtain ⟨a, ha, rfl⟩ := fin_exists_nonneg_real hx hx0
  obtain ⟨b, hb, rfl⟩ := fin_exists_pos_real hy hy0
  rw [div_coe_coe a hb.ne']
  exact EReal.coe_nonneg.mpr (div_nonneg ha hb.le)

theorem div_pos_of_fin {x y : EReal} (hx : Fin' x) (hy : Fin' y) (hx0 : 0 < x) (hy0 : 0 < y) :
    0 < Ideal.div x y := by
  obtain ⟨a, ha, rfl⟩ := fin_exists_pos_real hx hx0
  obtain ⟨b, hb, rfl⟩ := fin_exists_pos_real hy hy0
  rw [div_coe_coe a hb.ne']
  exact EReal.coe_pos.mpr (div_pos ha hb)

/-- The reciprocal square root of a positive real is a positive real. -/
theorem fin_rsqrt {x : EReal} (hx : Fin' x) (h0 : 0 < x) : Fin' (Ideal.rsqrt x) ∧ 0 < Ideal.rsqrt x := by
  obtain ⟨r, hr, rfl⟩ := fin_exists_pos_real hx h0
  rw [Ideal.rsqrt_coe, if_neg (not_lt.mpr hr.le), if_neg hr.ne']
  exact ⟨Fin'.coe _, EReal.coe_pos.mpr (inv_pos.mpr (Real.sqrt_pos.mpr hr))⟩

/-- The exponential of a real is a positive real. -/
theorem fin_exp {x : EReal} (hx : Fin' x) : Fin' (Ideal.exp x) ∧ 0 < Ideal.exp x := by
  obtain ⟨r, rfl⟩ := hx.exists_real
  rw [Ideal.exp_coe]
  exact ⟨Fin'.coe _, EReal.coe_pos.mpr (Real.exp_pos r)⟩

end Scalars

section Unary
variable {s : Shape} {φ : FTy}

theorem hostDivf_apply (a b : FVec Ideal s φ) (i : s.Idx) : Host.divf (F := Ideal) a b i = Ideal.div (a i) (b i) := rfl
theorem hostRsqrt_apply (v : FVec Ideal s φ) (i : s.Idx) : Host.rsqrt (F := Ideal) v i = Ideal.rsqrt (v i) := rfl
theorem hostExp_apply (v : FVec Ideal s φ) (i : s.Idx) : Host.exp (F := Ideal) v i = Ideal.exp (v i) := rfl

/-- A host quotient of finite entries by finite nonzero entries is finite. -/
theorem allFin_hostDivf {a b : FVec Ideal s φ} (ha : AllFin a) (hb : AllFin b) (hb0 : ∀ i, b i ≠ 0) :
    AllFin (Host.divf (F := Ideal) a b) := fun i => fin_div (ha i) (hb i) (hb0 i)

/-- A host quotient by a vector all of whose entries are one nonzero real (the broadcast of a constant). -/
theorem allFin_hostDivf_const {a b : FVec Ideal s φ} {c : ℝ} (ha : AllFin a) (hb : ∀ i, b i = (c : EReal))
    (hc : c ≠ 0) : AllFin (Host.divf (F := Ideal) a b) := fun i =>
  fin_div (ha i) (by rw [hb i]; exact Fin'.coe c) (by rw [hb i]; exact_mod_cast hc)

theorem hostDivf_nonneg {a b : FVec Ideal s φ} (ha : AllFin a) (hb : AllFin b) (ha0 : ∀ i, 0 ≤ a i)
    (hb0 : ∀ i, 0 < b i) (i : s.Idx) : 0 ≤ Host.divf (F := Ideal) a b i :=
  div_nonneg_of_fin (ha i) (hb i) (ha0 i) (hb0 i)

theorem hostDivf_pos {a b : FVec Ideal s φ} (ha : AllFin a) (hb : AllFin b) (ha0 : ∀ i, 0 < a i)
    (hb0 : ∀ i, 0 < b i) (i : s.Idx) : 0 < Host.divf (F := Ideal) a b i :=
  div_pos_of_fin (ha i) (hb i) (ha0 i) (hb0 i)

/-- Non-negative finite entries divided by one positive real stay non-negative. -/
theorem hostDivf_const_nonneg {a b : FVec Ideal s φ} {c : ℝ} (ha : AllFin a) (ha0 : ∀ i, 0 ≤ a i)
    (hb : ∀ i, b i = (c : EReal)) (hc : 0 < c) (i : s.Idx) : 0 ≤ Host.divf (F := Ideal) a b i :=
  div_nonneg_of_fin (ha i) (by rw [hb i]; exact Fin'.coe c) (ha0 i) (by rw [hb i]; exact EReal.coe_pos.mpr hc)

/-- The host's reciprocal square root of positive reals: positive reals. -/
theorem allFin_hostRsqrt {v : FVec Ideal s φ} (hv : AllFin v) (h0 : ∀ i, 0 < v i) : AllFin (Host.rsqrt (F := Ideal) v) :=
  fun i => (fin_rsqrt (hv i) (h0 i)).1

theorem hostRsqrt_pos {v : FVec Ideal s φ} (hv : AllFin v) (h0 : ∀ i, 0 < v i) (i : s.Idx) :
    0 < Host.rsqrt (F := Ideal) v i := (fin_rsqrt (hv i) (h0 i)).2

/-- The host's exponential of reals: positive reals. -/
theorem allFin_hostExp {v : FVec Ideal s φ} (hv : AllFin v) : AllFin (Host.exp (F := Ideal) v) :=
  fun i => (fin_exp (hv i)).1

theorem hostExp_pos {v : FVec Ideal s φ} (hv : AllFin v) (i : s.Idx) : 0 < Host.exp (F := Ideal) v i :=
  (fin_exp (hv i)).2

/-- A sum of a non-negative and a positive vector (a variance plus a positive constant) is positive. -/
theorem addf_pos_of_nonneg_of_pos {a b : FVec Ideal s φ} (ha : ∀ i, 0 ≤ a i) (hb : ∀ i, 0 < b i) (i : s.Idx) :
    0 < addf (F := Ideal) a b i := add_pos_of_nonneg_of_pos' (ha i) (hb i)

end Unary

/-! ### A maximum along axes -/

section ReduceMax
variable {s t u : Shape} {φ : FTy} {axes : List (Fin s.rank)}

/-- An entry of a host maximum along axes: the maximum, from the initial value, over the entries that reduce
    to it, in any order. -/
theorem reduceMax_apply (x : FVec Ideal s φ) (init : u.Idx → Ideal φ) (h : s.ReducesTo axes t) (hu : 0 < u.numel)
    (j : t.Idx) :
    Host.reduce (FloatOps.maximumf (F := Ideal) (φ := φ)) x init h hu j
      = (Finset.univ.filter fun i => h.drop i = j).fold max (init (Shape.Idx.first hu)) x :=
  Host.reduce_eq_fold _ x init h hu j

/-- A host maximum along axes of finite entries, from an initial value that is not plus infinity (minus
    infinity, usually), is finite wherever some entry reduces to the index. -/
theorem allFin_reduceMax {x : FVec Ideal s φ} {init : u.Idx → Ideal φ} (h : s.ReducesTo axes t) (hu : 0 < u.numel)
    (hx : AllFin x) (hinit : init (Shape.Idx.first hu) ≠ ⊤) (hsurj : ∀ j, ∃ i, h.drop i = j) :
    AllFin (Host.reduce (FloatOps.maximumf (F := Ideal) (φ := φ)) x init h hu) := by
  intro j
  rw [reduceMax_apply]
  constructor
  · refine ne_of_lt ((Finset.fold_max_lt _).2 ⟨lt_top_iff_ne_top.mpr hinit, fun i _ => lt_top_iff_ne_top.mpr (hx i).1⟩)
  · obtain ⟨i, hi⟩ := hsurj j
    exact ne_of_gt ((Finset.lt_fold_max _).2 (Or.inr ⟨i, Finset.mem_filter.2 ⟨Finset.mem_univ _, hi⟩,
      bot_lt_iff_ne_bot.mpr (hx i).2⟩))

/-- The same along ONE axis of positive extent. -/
theorem allFin_reduceMax_single {a : Fin s.rank} {x : FVec Ideal s φ} {init : u.Idx → Ideal φ}
    (h' : s.ReducesTo [a] t) (h : s.Reduces [a] t) (ha : 0 < s.size a) (hu : 0 < u.numel) (hx : AllFin x)
    (hinit : init (Shape.Idx.first hu) ≠ ⊤) :
    AllFin (Host.reduce (FloatOps.maximumf (F := Ideal) (φ := φ)) x init h' hu) :=
  allFin_reduceMax h' hu hx hinit (exists_drop_eq h' h ha)

/-- Every entry that reduces to an index is at most the maximum there. -/
theorem le_reduceMax (x : FVec Ideal s φ) (init : u.Idx → Ideal φ) (h : s.ReducesTo axes t) (hu : 0 < u.numel)
    (i : s.Idx) : x i ≤ Host.reduce (FloatOps.maximumf (F := Ideal) (φ := φ)) x init h hu (h.drop i) := by
  rw [reduceMax_apply]
  exact (Finset.le_fold_max _).2 (Or.inr ⟨i, Finset.mem_filter.2 ⟨Finset.mem_univ _, rfl⟩, le_rfl⟩)

/-- A maximum against a vector of minus infinities is the other operand. -/
theorem maximumf_bot_left {b w : FVec Ideal s φ} (hb : ∀ i, b i = ⊥) : maximumf (F := Ideal) b w = w :=
  funext fun i => by
    show max (b i) (w i) = w i
    rw [hb i]; exact max_bot_left _

theorem maximumf_bot_right {b w : FVec Ideal s φ} (hb : ∀ i, b i = ⊥) : maximumf (F := Ideal) w b = w :=
  funext fun i => by
    show max (w i) (b i) = w i
    rw [hb i]; exact max_bot_right _

end ReduceMax

/-! ### The normalisation of a row of positive reals by its sum -/

section Normalise
variable {s t u : Shape} {φ : FTy} {axes : List (Fin s.rank)}

/-- The sum along axes, from zero, of positive reals is a vector of positive reals, provided every result
    index has some entry reducing to it. -/
theorem reduceAdd_pos_fin {e : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j) :
    AllFin (Host.reduceAdd (F := Ideal) e init h hu) ∧ ∀ j, 0 < Host.reduceAdd (F := Ideal) e init h hu j :=
  ⟨allFin_reduceAdd h hu he (by rw [hinit]; exact fin_zero), fun j => reduceAdd_pos h hu hpos hinit j (hsurj j)⟩

/-- Positive reals divided by (a re-indexing of) their sums along axes: real, and positive. `b` is the
    divisor as the program builds it; all that is used of it is that each of its entries is an entry of the
    vector of sums. -/
theorem normalise_fin_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) :
    AllFin (Host.divf (F := Ideal) e b) ∧ ∀ i, 0 < Host.divf (F := Ideal) e b i := by
  obtain ⟨hS, hS0⟩ := reduceAdd_pos_fin h hu he hpos hinit hsurj
  have hbF : AllFin b := hb.forall Fin' hS
  have hb0 : ∀ i, 0 < b i := hb.forall (fun y => 0 < y) hS0
  exact ⟨allFin_hostDivf he hbF fun i => (hb0 i).ne', hostDivf_pos he hbF hpos hb0⟩

/-- The normalised row has real entries. -/
theorem allFin_normalise {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) : AllFin (Host.divf (F := Ideal) e b) :=
  (normalise_fin_pos h hu he hpos hinit hsurj hb).1

/-- The normalised row has positive entries. -/
theorem normalise_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) (i : s.Idx) : 0 < Host.divf (F := Ideal) e b i :=
  (normalise_fin_pos h hu he hpos hinit hsurj hb).2 i

/-- An entry of a normalised row is that entry over the sum it reduces to, when the divisor reads at each
    entry the sum of its own row (`hb`). -/
theorem normalise_entry {e b : FVec Ideal s φ} {init : u.Idx → Ideal φ} (h : s.ReducesTo axes t) (hu : 0 < u.numel)
    (hb : ∀ i, b i = Host.reduceAdd (F := Ideal) e init h hu (h.drop i)) (i : s.Idx) :
    Host.divf (F := Ideal) e b i = Ideal.div (e i) (Host.reduceAdd (F := Ideal) e init h hu (h.drop i)) := by
  rw [hostDivf_apply, hb i]

end Normalise

/-! ### Constants -/

section Constants

theorem constant_apply (s : Shape) (φ : FTy) (w : BitVec φ.bits) (i : s.Idx) :
    constant (F := Ideal) s φ w i = Ideal.ofBits φ w := rfl

/-- A constant whose word denotes a real has finite entries. -/
theorem allFin_constant (s : Shape) {φ : FTy} {w : BitVec φ.bits} {c : ℝ} (hc : Ideal.ofBits φ w = (c : EReal)) :
    AllFin (constant (F := Ideal) s φ w) := fun _ => by
  show Fin' (Ideal.ofBits φ w)
  rw [hc]; exact Fin'.coe c

/-- The word of `0.0` denotes zero. -/
theorem ofBits_zero : Ideal.ofBits .f32 0x00000000#32 = 0 := Ideal.ofBits_zero_f32

theorem ofBits_zero_coe : Ideal.ofBits .f32 0x00000000#32 = ((0 : ℝ) : EReal) := by
  rw [ofBits_zero, EReal.coe_zero]

/-- The word of `8192.0` denotes the real 8192. -/
theorem ofBits_8192 : Ideal.ofBits .f32 0x46000000#32 = ((8192 : ℝ) : EReal) := by
  simp [Ideal.ofBits, Ideal.ieee, -EReal.coe_mul]; norm_num

/-- The word of `20.0` denotes the real 20. -/
theorem ofBits_20 : Ideal.ofBits .f32 0x41A00000#32 = ((20 : ℝ) : EReal) := by
  simp [Ideal.ofBits, Ideal.ieee, -EReal.coe_mul]; norm_num

/-- The single-precision number nearest to one hundred-thousandth is `10995116 · 2⁻⁴⁰`. -/
theorem ofBits_1em5 : Ideal.ofBits .f32 0x3727C5AC#32 = ((10995116 * (2 : ℝ) ^ (-40 : Int) : ℝ) : EReal) := by
  simp [Ideal.ofBits, Ideal.ieee, -EReal.coe_mul]

theorem ofBits_1em5_pos : ∃ r : ℝ, 0 < r ∧ Ideal.ofBits .f32 0x3727C5AC#32 = (r : EReal) :=
  ⟨_, by positivity, ofBits_1em5⟩

/-- The word of minus infinity denotes it. -/
theorem ofBits_neg_inf : Ideal.ofBits .f32 0xFF800000#32 = ⊥ := by
  simp [Ideal.ofBits, Ideal.ieee]

theorem constant_neg_inf_apply (s : Shape) (i : s.Idx) : constant (F := Ideal) s .f32 0xFF800000#32 i = ⊥ :=
  ofBits_neg_inf

theorem constant_zero_apply (s : Shape) (i : s.Idx) : constant (F := Ideal) s .f32 0x00000000#32 i = 0 :=
  ofBits_zero

theorem constant_8192_apply (s : Shape) (i : s.Idx) :
    constant (F := Ideal) s .f32 0x46000000#32 i = ((8192 : ℝ) : EReal) := ofBits_8192

theorem constant_20_apply (s : Shape) (i : s.Idx) :
    constant (F := Ideal) s .f32 0x41A00000#32 i = ((20 : ℝ) : EReal) := ofBits_20

/-- A signed integer read as a float is a real number; the integer zero reads as zero. -/
theorem allFin_sitofp {s : Shape} {w : Nat} (φ : FTy) (x : IVec s w) : AllFin (sitofp (F := Ideal) φ x) :=
  fun _ => Fin'.coe _

theorem sitofp_zero_apply {s : Shape} (φ : FTy) (x : IVec s 32) (i : s.Idx) (hx : x i = 0#32) :
    sitofp (F := Ideal) φ x i = ((0 : ℝ) : EReal) := by
  show (((x i).toInt : ℝ) : EReal) = ((0 : ℝ) : EReal)
  rw [hx]; simp

/-- A selection between two vectors with finite entries has finite entries. -/
theorem allFin_select {s : Shape} (c : IVec s 1) {a b : s.Idx → EReal} (ha : AllFin a) (hb : AllFin b) :
    AllFin (select c a b) := fun i => by
  show Fin' (if c i = 1 then a i else b i)
  split <;> [exact ha i; exact hb i]

/-- Where the condition holds a selection is its first operand, whatever the second. -/
theorem select_of_true {s : Shape} {α : Type} (c : IVec s 1) (a b : s.Idx → α) (hc : ∀ i, c i = 1) : select c a b = a :=
  funext fun i => by
    show (if c i = 1 then a i else b i) = a i
    rw [if_pos (hc i)]

end Constants

/-! ### The same facts on the shapes a printed program writes

A proof about a printed program meets these operations applied to broadcasts of constants; stated on that
shape the lemmas apply without unfolding anything. -/

section Printed

/-- The maximum against a broadcast of the constant minus infinity is the other operand. -/
theorem maximumf_bcast_neg_inf_left {s t : Shape} (dims : Fin s.rank → Fin t.rank) (h : s.BroadcastsInDim t dims)
    (w : FVec Ideal t .f32) :
    maximumf (F := Ideal) (broadcastInDim t dims h (constant (F := Ideal) s .f32 0xFF800000#32)) w = w :=
  maximumf_bot_left fun _ => ofBits_neg_inf

theorem maximumf_bcast_neg_inf_right {s t : Shape} (dims : Fin s.rank → Fin t.rank) (h : s.BroadcastsInDim t dims)
    (w : FVec Ideal t .f32) :
    maximumf (F := Ideal) w (broadcastInDim t dims h (constant (F := Ideal) s .f32 0xFF800000#32)) = w :=
  maximumf_bot_right fun _ => ofBits_neg_inf

/-- A rectifier: the maximum against a broadcast of the constant zero keeps finite entries finite and is
    non-negative. -/
theorem allFin_maximumf_bcast_zero {s t : Shape} (dims : Fin s.rank → Fin t.rank) (h : s.BroadcastsInDim t dims)
    {w : FVec Ideal t .f32} (hw : AllFin w) :
    AllFin (maximumf (F := Ideal) w (broadcastInDim t dims h (constant (F := Ideal) s .f32 0x00000000#32))) :=
  allFin_maximumf hw fun _ => by
    show Fin' (Ideal.ofBits .f32 0x00000000#32)
    rw [ofBits_zero]; exact fin_zero

theorem maximumf_bcast_zero_nonneg {s t : Shape} (dims : Fin s.rank → Fin t.rank) (h : s.BroadcastsInDim t dims)
    (w : FVec Ideal t .f32) (i : t.Idx) :
    0 ≤ maximumf (F := Ideal) w (broadcastInDim t dims h (constant (F := Ideal) s .f32 0x00000000#32)) i :=
  maximumf_nonneg_right _ _ (fun _ => by
    show 0 ≤ Ideal.ofBits .f32 0x00000000#32
    rw [ofBits_zero]) i

/-- A host quotient by a broadcast of a constant that denotes a nonzero real. -/
theorem allFin_hostDivf_bcast_constant {s t : Shape} {φ : FTy} (dims : Fin s.rank → Fin t.rank)
    (h : s.BroadcastsInDim t dims) {w : BitVec φ.bits} {c : ℝ} (hw : Ideal.ofBits φ w = (c : EReal)) (hc : c ≠ 0)
    {a : FVec Ideal t φ} (ha : AllFin a) :
    AllFin (Host.divf (F := Ideal) a (broadcastInDim t dims h (constant (F := Ideal) s φ w))) :=
  allFin_hostDivf_const ha (fun _ => hw) hc

/-- ... and it is non-negative when the entries are and the real is positive. -/
theorem hostDivf_bcast_constant_nonneg {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha : AllFin a) (ha0 : ∀ i, 0 ≤ a i) (i : t.Idx) :
    0 ≤ Host.divf (F := Ideal) a (broadcastInDim t dims h (constant (F := Ideal) s φ w)) i :=
  hostDivf_const_nonneg ha ha0 (fun _ => hw) hc i

/-- A sum with a broadcast of a constant that denotes a positive real, of non-negative entries, is positive. -/
theorem addf_bcast_constant_pos {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha0 : ∀ i, 0 ≤ a i) (i : t.Idx) :
    0 < addf (F := Ideal) a (broadcastInDim t dims h (constant (F := Ideal) s φ w)) i :=
  addf_pos_of_nonneg_of_pos ha0 (fun _ => by
    show 0 < Ideal.ofBits φ w
    rw [hw]; exact EReal.coe_pos.mpr hc) i

theorem allFin_bcast_constant {s t : Shape} {φ : FTy} (dims : Fin s.rank → Fin t.rank)
    (h : s.BroadcastsInDim t dims) {w : BitVec φ.bits} {c : ℝ} (hw : Ideal.ofBits φ w = (c : EReal)) :
    AllFin (broadcastInDim t dims h (constant (F := Ideal) s φ w)) :=
  allFin_broadcastInDim t dims h (allFin_constant s hw)

/-- A constant minus the integer zero read as a float: the constant. (A count `n - 0` of a variance.) -/
theorem subf_constant_sitofp_zero_apply (s : Shape) {w : BitVec 32} {c : ℝ} (hw : Ideal.ofBits .f32 w = (c : EReal))
    (i : s.Idx) :
    subf (F := Ideal) (constant (F := Ideal) s .f32 w) (sitofp (F := Ideal) .f32 (constantI s 32 0#32)) i = (c : EReal) := by
  show Ideal.ofBits .f32 w - ((((0#32 : BitVec 32).toInt : ℝ)) : EReal) = (c : EReal)
  rw [hw]; simp

/-- The comparison "greater than" answers one where it holds. -/
theorem cmpf_ogt_eq_one {s : Shape} {φ : FTy} (x y : FVec Ideal s φ) (i : s.Idx) (h : y i < x i) :
    cmpf (F := Ideal) .ogt x y i = 1#1 := by
  show BitVec.ofBool (decide (y i < x i)) = 1#1
  rw [decide_eq_true h]; rfl

end Printed

end LibIdealFinite

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.GcnAlgebra.lean ====
/-
  The law that joins the two arrangements of one graph-convolution layer with self loops.

  Fix a target node i and a column.  Write g(n) for the dense row entry of node n and d(n) for its factor (the inverse
  square root of its degree).  One arrangement sums, over the edges landing on i and over i's own self loop,
  g(source)·(d(source)·d(target)); every edge that lands on i has target i.  The other first scales every row by its own
  factor, sums the scaled source rows of the edges landing on i, adds i's own scaled row, and scales the total by d(i).
  The two agree because d(i) distributes over the finite sum — which needs the entries to be real numbers: on the
  extended reals a product does not distribute over a sum that mixes the two infinities.
-/
import proofs.«129970_j1520418423297_2_alg».proof.Proof.LibERealMatrix

open scoped BigOperators

namespace GcnAlgebra

open LibERealMatrix Finset

/-- One layer, one target node, one column: the normalised sum over edges and self loop is the row-scaled sum,
    scaled once more by the target's factor. `lands e` says edge e lands on the target i; `tgt e` is the node whose
    factor the first arrangement reads for e, which is i whenever e lands on i. -/
theorem layer_law {ι ν : Type*} [Fintype ι] (lands : ι → Prop) [DecidablePred lands] (src tgt : ι → ν) (i : ν)
    (htgt : ∀ e, lands e → tgt e = i) (g d : ν → EReal) (hg : ∀ n, Fin' (g n)) (hd : ∀ n, Fin' (d n)) :
    (∑ e, if lands e then g (src e) * (d (src e) * d (tgt e)) else 0) + g i * (d i * d i)
      = ((∑ e, if lands e then g (src e) * d (src e) else 0) + g i * d i) * d i := by
  obtain ⟨g', hg'⟩ := exists_real_family g hg
  obtain ⟨d', hd'⟩ := exists_real_family d hd
  have hL : ∀ e, (if lands e then g (src e) * (d (src e) * d (tgt e)) else 0)
      = (((if lands e then g' (src e) * (d' (src e) * d' i) else 0 : ℝ)) : EReal) := by
    intro e
    by_cases h : lands e
    · rw [if_pos h, if_pos h, htgt e h, hg', hd', hd', EReal.coe_mul, EReal.coe_mul]
    · rw [if_neg h, if_neg h, EReal.coe_zero]
  have hR : ∀ e, (if lands e then g (src e) * d (src e) else 0)
      = (((if lands e then g' (src e) * d' (src e) else 0 : ℝ)) : EReal) := by
    intro e
    by_cases h : lands e
    · rw [if_pos h, if_pos h, hg', hd', EReal.coe_mul]
    · rw [if_neg h, if_neg h, EReal.coe_zero]
  rw [Finset.sum_congr rfl (fun e _ => hL e), Finset.sum_congr rfl (fun e _ => hR e), ← coe_sum, ← coe_sum,
    hg' i, hd' i, ← EReal.coe_mul, ← EReal.coe_mul, ← EReal.coe_add, ← EReal.coe_mul, ← EReal.coe_add, ← EReal.coe_mul]
  congr 1
  rw [add_mul, Finset.sum_mul]
  congr 1
  · refine Finset.sum_congr rfl fun e _ => ?_
    split_ifs <;> ring
  · ring

/-- The same sums are real numbers when their entries are. -/
theorem fin_edge_sum {ι : Type*} [Fintype ι] (lands : ι → Prop) [DecidablePred lands] (f : ι → EReal)
    (hf : ∀ e, Fin' (f e)) : Fin' (∑ e, if lands e then f e else 0) :=
  Fin'.sum _ _ fun e => by
    by_cases h : lands e
    · rw [if_pos h]; exact hf e
    · rw [if_neg h]; exact ⟨EReal.zero_ne_top, EReal.zero_ne_bot⟩

/-- A sum over the edges followed by the self loops, cut at the seam. -/
theorem sum_edges_then_loops {M : Type*} [AddCommMonoid M] (f : Fin (800000 + 50000) → M) :
    ∑ e, f e = ∑ e : Fin 800000, f (Fin.castAdd 50000 e) + ∑ k : Fin 50000, f (Fin.natAdd 800000 k) :=
  Fin.sum_univ_add f

end GcnAlgebra
-- ==== Proof.GcnSpec.lean ====
/-
  The two arrangements of a two-layer graph convolution with self loops, entry by entry, and why they agree.

  The graph has 50000 nodes and 800000 directed edges given as pairs of 32-bit words (source, target).  A word that
  reads negative as a signed integer is first moved up by 50000 ("wrap": an index counted from the end); a gather
  then clamps the signed value into [0, 49999] ("row"), while a scatter drops an entry whose signed value is not a node.
  An edge therefore lands on node i exactly when its raw target word reads i, and then wrap and clamp leave it alone.

  Arrangement R (self loops as extra edges): the edge list is followed by the 50000 self loops (k, k).  The degree of i
  counts the entries whose wrapped target is i; the factor of a node is the inverse square root of its degree; a layer
  sums, over the entries landing on i, g(source)·(factor(source)·factor(target)).

  Arrangement K (self loops folded in): the degree counts the real edges and adds 1; rows are scaled by their own
  factor first, the scaled source rows of the edges landing on i are summed, i's own scaled row is added, and the
  total is scaled by i's factor.

  They agree: the self-loop part of R's sums is a single term (the k-th self loop lands on i iff k = i), and the
  target's factor distributes over the finite sum of real numbers.
-/
import proofs.«129970_j1520418423297_2_alg».proof.Proof.LibRowGather
import proofs.«129970_j1520418423297_2_alg».proof.Proof.LibERealMatrix
import proofs.«129970_j1520418423297_2_alg».proof.Proof.LibIdealFinite
import proofs.«129970_j1520418423297_2_alg».proof.Proof.LibReciprocalScale
import proofs.«129970_j1520418423297_2_alg».proof.Proof.GcnAlgebra
import Idealize.ShloMosaic.PureOps.Ideal.Laws
import Idealize.ShloMosaic.Lib.Affine

noncomputable section

open scoped BigOperators

namespace GcnSpec

open Idealize.ShloMosaic LibERealMatrix LibIdealFinite

/-! ## Index words -/

/-- A word that reads negative is moved up by the number of nodes. -/
def wrap (v : BitVec 32) : BitVec 32 := Scalar.select (IntOp.cmpi .slt v 0#32) (IntOp.addi v 50000#32) v

/-- The row a gather reads for an index word: its signed value clamped into [0, 49999]. -/
abbrev row (v : BitVec 32) : Fin 50000 := LibRowGather.clampRow 50000 (by norm_num) v

theorem wrap_of_nonneg {v : BitVec 32} (h : 0 ≤ v.toInt) : wrap v = v := by
  unfold wrap Scalar.select
  rw [if_neg]
  intro hc
  have h1 := IntOp.cmpi_slt.mp hc
  rw [BitVec.toInt_zero] at h1
  omega

theorem row_of_toInt {v : BitVec 32} {i : Fin 50000} (h : v.toInt = ((i : ℕ) : ℤ)) : row v = i := by
  apply Fin.ext
  show min v.toInt.toNat (50000 - 1) = i.val
  have hi := i.isLt
  rw [h, Int.toNat_natCast]
  omega

theorem wrap_of_toInt {v : BitVec 32} {i : Fin 50000} (h : v.toInt = ((i : ℕ) : ℤ)) : wrap v = v :=
  wrap_of_nonneg (by rw [h]; exact Int.natCast_nonneg _)

theorem toInt_ofNat_node (k : Fin 50000) : (BitVec.ofNat 32 k.val).toInt = ((k : ℕ) : ℤ) := by
  have hk := k.isLt
  rw [BitVec.toInt_eq_toNat_cond, BitVec.toNat_ofNat]
  have : k.val % 2 ^ 32 = k.val := Nat.mod_eq_of_lt (by omega)
  rw [this, if_pos (by omega)]

/-- The edge list followed by the self loops: entry e' is edge e' below 800000, the node e' − 800000 after. -/
def cat (a : Fin 800000 → BitVec 32) (e' : Fin 850000) : BitVec 32 :=
  if h : e'.val < 800000 then a ⟨e'.val, h⟩ else BitVec.ofNat 32 (e'.val - 800000)

theorem cat_edge (a : Fin 800000 → BitVec 32) (e : Fin 800000) :
    cat a (Fin.castAdd 50000 e : Fin (800000 + 50000)) = a e := by
  unfold cat
  rw [dif_pos (show (Fin.castAdd 50000 e : Fin (800000 + 50000)).val < 800000 from e.isLt)]
  rfl

theorem cat_loop (a : Fin 800000 → BitVec 32) (k : Fin 50000) :
    cat a (Fin.natAdd 800000 k : Fin (800000 + 50000)) = BitVec.ofNat 32 k.val := by
  unfold cat
  rw [dif_neg (show ¬ (Fin.natAdd 800000 k : Fin (800000 + 50000)).val < 800000 by
    show ¬ 800000 + k.val < 800000; omega)]
  show BitVec.ofNat 32 (800000 + k.val - 800000) = _
  rw [Nat.add_sub_cancel_left]

/-! ## The two words of exact arithmetic -/

abbrev zeroW : EReal := Ideal.ofBits .f32 0x00000000#32
abbrev oneW : EReal := Ideal.ofBits .f32 0x3F800000#32

theorem fin_one : Fin' (1 : EReal) := by rw [← EReal.coe_one]; exact Fin'.coe 1

theorem zeroW_eq : zeroW = 0 := Ideal.ofBits_zero_f32
theorem oneW_eq : oneW = 1 := LibReciprocalScale.ofBits_one_f32

/-! ## Arrangement K -/

section
variable (src dst : Fin 800000 → BitVec 32)

def degK (i : Fin 50000) : EReal :=
  (zeroW + ∑ e : Fin 800000, if (wrap (dst e)).toInt = ((i : ℕ) : ℤ) then oneW else 0) + oneW

def facK (i : Fin 50000) : EReal := Ideal.rsqrt (degK dst i)

/-- The sum of the (already scaled) source rows of the edges landing on i. -/
def aggK {κ : Type} (gs : Fin 50000 → κ → EReal) (i : Fin 50000) (k : κ) : EReal :=
  zeroW + ∑ e : Fin 800000, if (dst e).toInt = ((i : ℕ) : ℤ) then gs (row (wrap (src e))) k else 0

variable (X : Fin 50000 → Fin 128 → EReal) (W1 : Fin 128 → Fin 128 → EReal) (b1 : Fin 128 → EReal)
  (W2 : Fin 128 → Fin 64 → EReal) (b2 : Fin 64 → EReal)

def dense1 (i : Fin 50000) (k : Fin 128) : EReal := ∑ l : Fin 128, X i l * W1 l k

def scaled1 (i : Fin 50000) (k : Fin 128) : EReal := dense1 X W1 i k * facK dst i

def hiddenK (i : Fin 50000) (k : Fin 128) : EReal :=
  max ((aggK src dst (scaled1 dst X W1) i k + scaled1 dst X W1 i k) * facK dst i + b1 k) zeroW

def scaled2 (i : Fin 50000) (j : Fin 64) : EReal := (∑ k : Fin 128, hiddenK src dst X W1 b1 i k * W2 k j) * facK dst i

def outK (i : Fin 50000) (j : Fin 64) : EReal :=
  (aggK src dst (scaled2 src dst X W1 b1 W2) i j + scaled2 src dst X W1 b1 W2 i j) * facK dst i + b2 j

/-! ## Arrangement R -/

def degR (i : Fin 50000) : EReal :=
  zeroW + ∑ e' : Fin 850000, if (wrap (cat dst e')).toInt = ((i : ℕ) : ℤ) then oneW else 0

def facR (i : Fin 50000) : EReal := Ideal.rsqrt (degR dst i)

/-- The weight of an entry: the factor of its source row times the factor of its target row. -/
def weightOf (fac : Fin 50000 → EReal) (e' : Fin 850000) : EReal :=
  fac (row (wrap (cat src e'))) * fac (row (wrap (cat dst e')))

def aggR {κ : Type} (fac : Fin 50000 → EReal) (g : Fin 50000 → κ → EReal) (i : Fin 50000) (k : κ) : EReal :=
  zeroW + ∑ e' : Fin 850000, if (cat dst e').toInt = ((i : ℕ) : ℤ)
    then g (row (wrap (cat src e'))) k * weightOf src dst fac e' else 0

def hiddenR (i : Fin 50000) (k : Fin 128) : EReal :=
  max (aggR src dst (facR dst) (dense1 X W1) i k + b1 k) zeroW

def dense2 (i : Fin 50000) (j : Fin 64) : EReal := ∑ k : Fin 128, hiddenR src dst X W1 b1 i k * W2 k j

def outR (i : Fin 50000) (j : Fin 64) : EReal :=
  aggR src dst (facR dst) (dense2 src dst X W1 b1 W2) i j + b2 j

/-! ## The degrees agree, and the factors are positive real numbers -/

theorem deg_eq (i : Fin 50000) : degR dst i = degK dst i := by
  unfold degR degK
  rw [show (∑ e' : Fin 850000, if (wrap (cat dst e')).toInt = ((i : ℕ) : ℤ) then oneW else 0)
      = ∑ e : Fin 800000, (if (wrap (cat dst (Fin.castAdd 50000 e : Fin (800000 + 50000)))).toInt = ((i : ℕ) : ℤ) then oneW else 0)
        + ∑ k : Fin 50000, (if (wrap (cat dst (Fin.natAdd 800000 k : Fin (800000 + 50000)))).toInt = ((i : ℕ) : ℤ) then oneW else 0)
    from GcnAlgebra.sum_edges_then_loops
      (fun e' : Fin (800000 + 50000) => if (wrap (cat dst e')).toInt = ((i : ℕ) : ℤ) then oneW else (0 : EReal))]
  have hloops : (∑ k : Fin 50000, (if (wrap (cat dst (Fin.natAdd 800000 k : Fin (800000 + 50000)))).toInt = ((i : ℕ) : ℤ) then oneW else (0 : EReal)))
      = oneW := by
    rw [Finset.sum_congr rfl (fun k _ => by
      rw [cat_loop, wrap_of_toInt (toInt_ofNat_node k), toInt_ofNat_node k]
      : ∀ k ∈ (Finset.univ : Finset (Fin 50000)), (if (wrap (cat dst (Fin.natAdd 800000 k : Fin (800000 + 50000)))).toInt = ((i : ℕ) : ℤ) then oneW else (0 : EReal))
          = if ((k : ℕ) : ℤ) = ((i : ℕ) : ℤ) then oneW else 0)]
    rw [Finset.sum_congr rfl (fun k _ => if_congr (by rw [Nat.cast_inj]; exact Fin.val_inj) rfl rfl
      : ∀ k ∈ (Finset.univ : Finset (Fin 50000)), (if ((k : ℕ) : ℤ) = ((i : ℕ) : ℤ) then oneW else (0 : EReal)) = if k = i then oneW else 0)]
    rw [Finset.sum_ite_eq' Finset.univ i (fun _ => oneW), if_pos (Finset.mem_univ i)]
  rw [hloops]
  simp only [cat_edge]
  rw [add_assoc]

theorem fac_eq : facR dst = facK dst := funext fun i => by unfold facR facK; rw [deg_eq]

theorem degK_fin_pos (i : Fin 50000) : Fin' (degK dst i) ∧ 0 < degK dst i := by
  unfold degK
  rw [zeroW_eq, oneW_eq, zero_add]
  have hs : Fin' (∑ e : Fin 800000, if (wrap (dst e)).toInt = ((i : ℕ) : ℤ) then (1 : EReal) else 0) :=
    GcnAlgebra.fin_edge_sum _ _ (fun _ => fin_one)
  have h0 : 0 ≤ ∑ e : Fin 800000, if (wrap (dst e)).toInt = ((i : ℕ) : ℤ) then (1 : EReal) else 0 :=
    Finset.sum_nonneg fun e _ => by split_ifs <;> simp
  exact ⟨Fin'.add hs fin_one, add_pos_of_nonneg_of_pos' h0 (by norm_num)⟩

theorem facK_fin (i : Fin 50000) : Fin' (facK dst i) :=
  (fin_rsqrt (degK_fin_pos dst i).1 (degK_fin_pos dst i).2).1

/-! ## One layer -/

theorem layer_eq {κ : Type} (fac : Fin 50000 → EReal) (hfac : ∀ n, Fin' (fac n)) (g : Fin 50000 → κ → EReal)
    (hg : ∀ n k, Fin' (g n k)) (i : Fin 50000) (k : κ) :
    aggR src dst fac g i k = (aggK src dst (fun n k => g n k * fac n) i k + g i k * fac i) * fac i := by
  unfold aggR aggK weightOf
  rw [zeroW_eq, zero_add, zero_add]
  rw [show (∑ e' : Fin 850000, if (cat dst e').toInt = ((i : ℕ) : ℤ)
        then g (row (wrap (cat src e'))) k * (fac (row (wrap (cat src e'))) * fac (row (wrap (cat dst e')))) else 0)
      = ∑ e : Fin 800000, (if (cat dst (Fin.castAdd 50000 e : Fin (800000 + 50000))).toInt = ((i : ℕ) : ℤ)
          then g (row (wrap (cat src (Fin.castAdd 50000 e : Fin (800000 + 50000))))) k
            * (fac (row (wrap (cat src (Fin.castAdd 50000 e : Fin (800000 + 50000)))))
              * fac (row (wrap (cat dst (Fin.castAdd 50000 e : Fin (800000 + 50000)))))) else 0)
        + ∑ n : Fin 50000, (if (cat dst (Fin.natAdd 800000 n : Fin (800000 + 50000))).toInt = ((i : ℕ) : ℤ)
          then g (row (wrap (cat src (Fin.natAdd 800000 n : Fin (800000 + 50000))))) k
            * (fac (row (wrap (cat src (Fin.natAdd 800000 n : Fin (800000 + 50000)))))
              * fac (row (wrap (cat dst (Fin.natAdd 800000 n : Fin (800000 + 50000)))))) else 0)
    from GcnAlgebra.sum_edges_then_loops
      (fun e' : Fin (800000 + 50000) => if (cat dst e').toInt = ((i : ℕ) : ℤ)
        then g (row (wrap (cat src e'))) k * (fac (row (wrap (cat src e'))) * fac (row (wrap (cat dst e')))) else (0 : EReal))]
  have hloops : (∑ n : Fin 50000, (if (cat dst (Fin.natAdd 800000 n : Fin (800000 + 50000))).toInt = ((i : ℕ) : ℤ)
          then g (row (wrap (cat src (Fin.natAdd 800000 n : Fin (800000 + 50000))))) k
            * (fac (row (wrap (cat src (Fin.natAdd 800000 n : Fin (800000 + 50000)))))
              * fac (row (wrap (cat dst (Fin.natAdd 800000 n : Fin (800000 + 50000)))))) else (0 : EReal)))
      = g i k * (fac i * fac i) := by
    rw [Finset.sum_congr rfl (fun n _ => by
      rw [cat_loop, cat_loop, wrap_of_toInt (toInt_ofNat_node n), row_of_toInt (toInt_ofNat_node n), toInt_ofNat_node n]
      : ∀ n ∈ (Finset.univ : Finset (Fin 50000)), _ = if ((n : ℕ) : ℤ) = ((i : ℕ) : ℤ) then g n k * (fac n * fac n) else 0)]
    rw [Finset.sum_congr rfl (fun n _ => if_congr (by rw [Nat.cast_inj]; exact Fin.val_inj) rfl rfl
      : ∀ n ∈ (Finset.univ : Finset (Fin 50000)), (if ((n : ℕ) : ℤ) = ((i : ℕ) : ℤ) then g n k * (fac n * fac n) else (0 : EReal))
          = if n = i then g n k * (fac n * fac n) else 0)]
    rw [Finset.sum_ite_eq' Finset.univ i (fun n => g n k * (fac n * fac n)), if_pos (Finset.mem_univ i)]
  rw [hloops]
  simp only [cat_edge]
  exact GcnAlgebra.layer_law (fun e : Fin 800000 => (dst e).toInt = ((i : ℕ) : ℤ))
    (fun e => row (wrap (src e))) (fun e => row (wrap (dst e))) i
    (fun e he => by rw [wrap_of_toInt he, row_of_toInt he]) (fun n => g n k) fac (fun n => hg n k) hfac

/-! ## The two arrangements agree -/

variable (hX : ∀ i l, Fin' (X i l)) (hW1 : ∀ l k, Fin' (W1 l k)) (hb1 : ∀ k, Fin' (b1 k))
  (hW2 : ∀ k j, Fin' (W2 k j)) (hb2 : ∀ j, Fin' (b2 j))

include hX hW1 in
theorem dense1_fin (i : Fin 50000) (k : Fin 128) : Fin' (dense1 X W1 i k) :=
  Fin'.sum _ _ fun l => Fin'.mul (hX i l) (hW1 l k)

include hX hW1 in
theorem scaled1_fin (i : Fin 50000) (k : Fin 128) : Fin' (scaled1 dst X W1 i k) :=
  Fin'.mul (dense1_fin X W1 hX hW1 i k) (facK_fin dst i)

theorem aggK_fin {κ : Type} (gs : Fin 50000 → κ → EReal) (hgs : ∀ n k, Fin' (gs n k)) (i : Fin 50000) (k : κ) :
    Fin' (aggK src dst gs i k) := by
  unfold aggK
  rw [zeroW_eq, zero_add]
  exact GcnAlgebra.fin_edge_sum _ _ (fun e => hgs _ k)

include hX hW1 hb1 in
theorem hiddenK_fin (i : Fin 50000) (k : Fin 128) : Fin' (hiddenK src dst X W1 b1 i k) := by
  unfold hiddenK
  rw [zeroW_eq]
  exact fin_max (Fin'.add (Fin'.mul (Fin'.add (aggK_fin src dst _ (scaled1_fin dst X W1 hX hW1) i k)
    (scaled1_fin dst X W1 hX hW1 i k)) (facK_fin dst i)) (hb1 k)) fin_zero

include hX hW1 in
theorem hidden_eq (i : Fin 50000) (k : Fin 128) : hiddenR src dst X W1 b1 i k = hiddenK src dst X W1 b1 i k := by
  unfold hiddenR hiddenK
  rw [fac_eq, layer_eq src dst (facK dst) (facK_fin dst) (dense1 X W1) (dense1_fin X W1 hX hW1) i k]
  rfl

include hX hW1 hb1 hW2 in
theorem dense2_fin (i : Fin 50000) (j : Fin 64) : Fin' (dense2 src dst X W1 b1 W2 i j) :=
  Fin'.sum _ _ fun k => Fin'.mul (by rw [hidden_eq src dst X W1 b1 hX hW1]; exact hiddenK_fin src dst X W1 b1 hX hW1 hb1 i k) (hW2 k j)

include hX hW1 hb1 hW2 in
/-- ENTRY BY ENTRY, the arrangement with the self loops as extra edges equals the one with them folded in. -/
theorem arrangements_agree (i : Fin 50000) (j : Fin 64) :
    outR src dst X W1 b1 W2 b2 i j = outK src dst X W1 b1 W2 b2 i j := by
  unfold outR outK
  rw [fac_eq, layer_eq src dst (facK dst) (facK_fin dst) (dense2 src dst X W1 b1 W2)
    (dense2_fin src dst X W1 b1 W2 hX hW1 hb1 hW2) i j]
  have h2 : ∀ n j', dense2 src dst X W1 b1 W2 n j' * facK dst n = scaled2 src dst X W1 b1 W2 n j' := by
    intro n j'
    unfold dense2 scaled2
    rw [Finset.sum_congr rfl (fun k _ => by rw [hidden_eq src dst X W1 b1 hX hW1])]
  rw [show (fun n k => dense2 src dst X W1 b1 W2 n k * facK dst n) = scaled2 src dst X W1 b1 W2 from
    funext fun n => funext fun j' => h2 n j', h2 i j]

end

end GcnSpec

end
-- ==== Proof.HostReads.lean ====
/-
  Host layout operations read at an entry, for any extents: a scalar spread over a shape, a vector [E] as the
  column [E, 1], and the move of a negative index word up by the number of nodes.
-/
import proofs.«129970_j1520418423297_2_alg».proof.Proof.GcnSpec
import Idealize.ShloMosaic.Lib.ValueIdx
import Idealize.ShloMosaic.Lib.Pipeline.Value

noncomputable section

namespace GcnHost

open Idealize.ShloMosaic Idealize.ShloMosaic.ValueIdx

/-- A scalar spread over any shape reads the scalar. -/
theorem splat_apply {α : Type} {t : Shape} (dims : Fin (⟨0, ![]⟩ : Shape).rank → Fin t.rank)
    (h : (⟨0, ![]⟩ : Shape).BroadcastsInDim t dims) (y : (⟨0, ![]⟩ : Shape).Idx → α) (i : t.Idx) :
    broadcastInDim t dims h y i = y (fun a => a.elim0) :=
  broadcastInDim_apply dims h y i (fun a => a.elim0) (fun a => a.elim0)

/-- A float word spread over any shape reads the word's value. -/
theorem splat_const_apply {t : Shape} (dims : Fin (⟨0, ![]⟩ : Shape).rank → Fin t.rank)
    (h : (⟨0, ![]⟩ : Shape).BroadcastsInDim t dims) (w : BitVec 32) (i : t.Idx) :
    broadcastInDim t dims h (constant (F := Ideal) ⟨0, ![]⟩ .f32 w) i = Ideal.ofBits .f32 w := by
  rw [splat_apply]; rfl

/-- An integer word spread over any shape reads the word. -/
theorem splat_constI_apply {t : Shape} (dims : Fin (⟨0, ![]⟩ : Shape).rank → Fin t.rank)
    (h : (⟨0, ![]⟩ : Shape).BroadcastsInDim t dims) (w : BitVec 32) (i : t.Idx) :
    broadcastInDim t dims h (constantI ⟨0, ![]⟩ 32 w) i = w := by
  rw [splat_apply]; rfl

/-- A vector of length E as the column [E, 1], at (e, z): the vector at e. -/
theorem column_apply {α : Type} {E : ℕ} (dims : Fin 1 → Fin 2) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split_ifs with h1
    · have := e.isLt; omega
    · rfl

/-- The compare-add-select that moves a negative index word up by the number of nodes, at an entry. -/
theorem wrap_apply {s : Shape} (v z n : IVec s 32) (i : s.Idx) (hz : z i = 0#32) (hn : n i = 50000#32) :
    select (cmpi .slt v z) (addi v n) v i = GcnSpec.wrap (v i) := by
  show Scalar.select (IntOp.cmpi .slt (v i) (z i)) (IntOp.addi (v i) (n i)) (v i) = _
  rw [hz, hn]
  rfl

end GcnHost

end
-- ==== Proof.LibSegmentIdx.lean ====
/-
  Gathers and accumulating scatters along the leading axis, read at an index.

  Indexing a table by an integer column, `x[idx]`, and summing update rows into the rows an integer column names
  (a segment sum) are the two halves of message passing on a graph. With the index column of shape [E, 1]:

  * a gather from a vector x : [N], or from a one-column matrix x : [N, 1], reads at position e the entry of x at
    the e-th index, read as a signed integer and clamped into [0, N − 1];
  * an accumulating scatter into a vector [N], or into a one-column matrix [N, 1], lands update e on row i exactly
    when the e-th index, read as a signed integer and NOT clamped, equals i; an index outside [0, N) lands nowhere;
  * hence, at exact arithmetic, row i of the scattered sum is the operand's row i plus the sum over all e of
    "update e if the e-th index equals i, else 0".
-/
import Idealize.ShloMosaic.Lib.ValueIdx
import Idealize.ShloMosaic.PureOps.Ideal.Laws

noncomputable section

open scoped BigOperators

namespace LibSegmentIdx

open Idealize.ShloMosaic Idealize.ShloMosaic.ValueIdx

/-! ## Gathers -/

section Gather
variable {α : Type}

/-- The dimension numbers of `x[idx]` for a vector `x : [N]` and an index column `idx : [E, 1]`, result `[E]`. -/
abbrev takeVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of `x[idx]` is `x` at the `e`-th index, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (takeVecDims N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (takeVecDims N E wf).start j idx 0 + (takeVecDims N E wf).batchCoord j 0 + (takeVecDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeVecDims N E wf).startIndexMap from List.mem_singleton.mpr rfl)]
  have hsi : (takeVecDims N E wf).siIdx j ⟨List.idxOf (0 : Fin 1) (takeVecDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a one-column matrix `x : [N, 1]` and `idx : [E, 1]`, result `[E, 1]`. -/
abbrev takeRowDims (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of `x[idx]` is the row of `x` at the `e`-th index, read signed and clamped into `[0, N − 1]`. -/
theorem gather_row_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (takeRowDims N E wf) x idx j
      = x (ix2 ⟨min (idx (ix2 (j 0) (0 : Fin 1))).toInt.toNat (N - 1), by omega⟩ (0 : Fin 1)) := by
  unfold Host.gather
  congr 1
  funext a
  refine Fin.ext ?_
  match a with
  | ⟨0, _⟩ =>
    show (takeRowDims N E wf).start j idx 0 + (takeRowDims N E wf).batchCoord j 0 + (takeRowDims N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims N E wf).startIndexMap from List.mem_singleton.mpr rfl)]
    have hsi : (takeRowDims N E wf).siIdx j ⟨List.idxOf (0 : Fin 2) (takeRowDims N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    have h1 := (takeRowDims N E wf).lt j idx 1
    have : (⟨2, ![N, 1]⟩ : Shape).size 1 = 1 := rfl
    show (takeRowDims N E wf).start j idx 1 + (takeRowDims N E wf).batchCoord j 1 + (takeRowDims N E wf).offCoord j 1 = 0
    omega

end Gather

/-! ## Accumulating scatters -/

section Scatter

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

/-- A column's index set `[n, 1]` is its row coordinate's range. -/
def idxEquivCol {n : Nat} : (⟨2, ![n, 1]⟩ : Shape).Idx ≃ Fin n where
  toFun i := i 0
  invFun e := ix2 e (0 : Fin 1)
  left_inv i := funext fun a => match a with
    | ⟨0, _⟩ => rfl
    | ⟨1, _⟩ => Fin.ext (by have := idx2_lt1 i; show (0 : ℕ) = (i 1).val; omega)
  right_inv _ := rfl

/-- The dimension numbers of a segment sum into a vector `[N]`: updates `[E]`, index column `[E, 1]`. -/
abbrev addVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `i` exactly when the `e`-th index, read signed, is `i`. -/
theorem resultIdx?_vec_iff {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (addVecDims N E wf).resultIdx? j idx = some i ↔ (idx (ix2 (j 0) (0 : Fin 1))).toInt = ((i 0).val : ℤ) := by
  have hi : (i 0).val < N := (i 0).isLt
  have hstart : (addVecDims N E wf).start j idx 0 = (idx (ix2 (j 0) (0 : Fin 1))).toInt := by
    unfold ScatterDims.start
    rw [dif_pos (show (0 : Fin 1) ∈ (addVecDims N E wf).scatterDimsToOperandDims from List.mem_singleton.mpr rfl)]
    have hsi : (addVecDims N E wf).siIdx j ⟨List.idxOf (0 : Fin 1) (addVecDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin : (addVecDims N E wf).window j 0 = 0 := by
    unfold ScatterDims.window
    rw [dif_neg (by simp [ScatterDims.sKept, Shape.kept])]
  unfold ScatterDims.resultIdx?
  split
  · rename_i h
    rw [Option.some_inj]
    constructor
    · intro he
      have h0 := congrArg (fun f => (f 0).val) he
      have hh := h 0
      simp only [hstart, hwin] at h0 hh
      omega
    · intro he
      funext a
      obtain rfl : a = 0 := Subsingleton.elim _ _
      refine Fin.ext ?_
      show ((addVecDims N E wf).start j idx 0 + ((addVecDims N E wf).window j 0 : ℕ)).toNat = (i 0).val
      rw [hstart, hwin]
      omega
  · rename_i h
    constructor
    · intro he; exact absurd he (by simp)
    · intro he
      exfalso
      apply h
      intro a
      obtain rfl : a = 0 := Subsingleton.elim _ _
      rw [hstart, hwin]
      have : (⟨1, ![N]⟩ : Shape).size 0 = N := rfl
      omega

/-- At exact arithmetic, entry `i` of the segment sum into a vector is the operand's entry plus the sum over all
    `e` of "update `e` if the `e`-th index is `i`, else 0". -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : (⟨1, ![N]⟩ : Shape).Idx) :
    Host.scatterAdd (addVecDims N E wf) x idx upd i
      = x i + ∑ e : Fin E, if (idx (ix2 e (0 : Fin 1))).toInt = ((i 0).val : ℤ) then upd (ix1 e) else 0 := by
  show Ideal.hostScatterAdd (addVecDims N E wf) x idx upd i = _
  unfold Ideal.hostScatterAdd
  congr 1
  rw [Finset.sum_filter]
  refine Fintype.sum_equiv idxEquiv1 _ _ (fun j => ?_)
  obtain ⟨e, rfl⟩ : ∃ e, j = ix1 e := ⟨j 0, eq_ix1 j⟩
  exact if_congr (resultIdx?_vec_iff wf idx (ix1 e) i) rfl rfl

/-- The dimension numbers of a segment sum into a one-column matrix `[N, 1]`: updates `[E, 1]`, index column `[E, 1]`. -/
abbrev addRowDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when the `e`-th index, read signed, is `i`'s row. -/
theorem resultIdx?_row_iff {N E w : Nat} (wf : ScatterDims.WF ⟨2, ![N, 1]⟩ ⟨2, ![E, 1]⟩ ⟨2, ![E, 1]⟩ [1] [0] [0] 1)
    (idx : IVec ⟨2, ![E, 1]⟩ w) (j : (⟨2, ![E, 1]⟩ : Shape).Idx) (i : (⟨2, ![N, 1]⟩ : Shape).Idx) :
    (addRowDims N E wf).resultIdx? j idx = some i ↔ (idx (ix2 (j 0) (0 : Fin 1))).toInt = ((i 0).val : ℤ) := by
  have hi0 : (i 0).val < N := idx2_lt0 i
  have hi1 : (i 1).val < 1 := idx2_lt1 i
  have hj1 : (j 1).val < 1 := idx2_lt1 j
  have hstart0 : (addRowDims N E wf).start j idx 0 = (idx (ix2 (j 0) (0 : Fin 1))).toInt := by
    unfold ScatterDims.start
    rw [dif_pos (show (0 : Fin 2) ∈ (addRowDims N E wf).scatterDimsToOperandDims from List.mem_singleton.mpr rfl)]
    have hsi : (addRowDims N E wf).siIdx j ⟨List.idxOf (0 : Fin 2) (addRowDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowDims N E wf).window j 0 = 0 := by
    unfold ScatterDims.window
    rw [dif_neg (by simp [ScatterDims.sKept, Shape.kept])]
  have hstart1 : (addRowDims N E wf).start j idx 1 = 0 := by
    unfold ScatterDims.start
    rw [dif_neg (by simp [ScatterDims.sKept, Shape.kept])]
  have hwin1 : (addRowDims N E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have hh := h 0
      simp only [hstart0, hwin0] at h0 hh
      omega
    · intro he
      funext a
      refine Fin.ext ?_
      match a with
      | ⟨0, _⟩ =>
        show ((addRowDims N E wf).start j idx 0 + ((addRowDims N E wf).window j 0 : ℕ)).toNat = (i 0).val
        rw [hstart0, hwin0]
        omega
      | ⟨1, _⟩ =>
        show ((addRowDims N E wf).start j idx 1 + ((addRowDims N E wf).window j 1 : ℕ)).toNat = (i 1).val
        rw [hstart1, hwin1]
        omega
  · rename_i h
    constructor
    · intro he; exact absurd he (by simp)
    · intro he
      exfalso
      apply h
      intro a
      match a with
      | ⟨0, _⟩ =>
        show 0 ≤ (addRowDims N E wf).start j idx 0 + ((addRowDims N E wf).window j 0 : ℕ)
          ∧ (addRowDims N E wf).start j idx 0 + ((addRowDims N E wf).window j 0 : ℕ) < (N : ℤ)
        rw [hstart0, hwin0]
        omega
      | ⟨1, _⟩ =>
        show 0 ≤ (addRowDims N E wf).start j idx 1 + ((addRowDims N E wf).window j 1 : ℕ)
          ∧ (addRowDims N E wf).start j idx 1 + ((addRowDims N E wf).window j 1 : ℕ) < ((1 : ℕ) : ℤ)
        rw [hstart1, hwin1]
        omega

/-- At exact arithmetic, row `i` of the segment sum into a one-column matrix is the operand's row plus the sum over
    all `e` of "update row `e` if the `e`-th index is `i`'s row, else 0". -/
theorem scatterAdd_row_apply {N E w : Nat} {φ : FTy} (wf : ScatterDims.WF ⟨2, ![N, 1]⟩ ⟨2, ![E, 1]⟩ ⟨2, ![E, 1]⟩ [1] [0] [0] 1)
    (x : FVec Ideal ⟨2, ![N, 1]⟩ φ) (idx : IVec ⟨2, ![E, 1]⟩ w) (upd : FVec Ideal ⟨2, ![E, 1]⟩ φ)
    (i : (⟨2, ![N, 1]⟩ : Shape).Idx) :
    Host.scatterAdd (addRowDims N E wf) x idx upd i
      = x i + ∑ e : Fin E, if (idx (ix2 e (0 : Fin 1))).toInt = ((i 0).val : ℤ) then upd (ix2 e (0 : Fin 1)) else 0 := by
  show Ideal.hostScatterAdd (addRowDims N E wf) x idx upd i = _
  unfold Ideal.hostScatterAdd
  congr 1
  rw [Finset.sum_filter]
  refine Fintype.sum_equiv idxEquivCol _ _ (fun j => ?_)
  obtain ⟨e, rfl⟩ : ∃ e, j = ix2 e (0 : Fin 1) := ⟨j 0, funext fun a => match a with
    | ⟨0, _⟩ => rfl
    | ⟨1, _⟩ => Fin.ext (by have := idx2_lt1 j; show (j 1).val = 0; omega)⟩
  exact if_congr (resultIdx?_row_iff wf idx (ix2 e (0 : Fin 1)) i) rfl rfl

end Scatter

end LibSegmentIdx

end
-- ==== Proof.LibRowScatter.lean ====
/-
  An accumulating scatter of whole rows, read at an entry.

  Update rows upd : [E, D] are summed into the rows of a matrix x : [N, D] that an integer column idx : [E, 1]
  names (a segment sum of rows).  Entry (e, d) of the updates lands on entry (i, j) of the result exactly when
  the e-th index, read as a signed integer and NOT clamped, equals i, and d = j; an index outside [0, N) lands
  nowhere.  Hence, at exact arithmetic, entry (i, j) of the scattered sum is the operand's entry plus the sum
  over all e of "upd (e, j) if the e-th index equals i, else 0".
-/
import Idealize.ShloMosaic.Lib.ValueIdx
import Idealize.ShloMosaic.PureOps.Ideal.Laws

noncomputable section

open scoped BigOperators

namespace LibRowScatter

open Idealize.ShloMosaic Idealize.ShloMosaic.ValueIdx

/-- The dimension numbers of a segment sum of rows into a matrix `[N, D]`: updates `[E, D]`, index column `[E, 1]`. -/
abbrev addRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update entry `(e, d)` lands on entry `(i, j)` exactly when the `e`-th index, read signed, is `i` and `d = j`. -/
theorem resultIdx?_rows_iff {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (addRowsDims N D E wf).resultIdx? j idx = some i
      ↔ (idx (ix2 (j 0) (0 : Fin 1))).toInt = ((i 0).val : ℤ) ∧ (j 1).val = (i 1).val := by
  have hi0 : (i 0).val < N := idx2_lt0 i
  have hi1 : (i 1).val < D := idx2_lt1 i
  have hj1 : (j 1).val < D := idx2_lt1 j
  have hstart0 : (addRowsDims N D E wf).start j idx 0 = (idx (ix2 (j 0) (0 : Fin 1))).toInt := by
    unfold ScatterDims.start
    rw [dif_pos (show (0 : Fin 2) ∈ (addRowsDims N D E wf).scatterDimsToOperandDims from List.mem_singleton.mpr rfl)]
    have hsi : (addRowsDims N D E wf).siIdx j ⟨List.idxOf (0 : Fin 2) (addRowsDims N D E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowsDims N D E wf).window j 0 = 0 := by
    unfold ScatterDims.window
    rw [dif_neg (by simp [ScatterDims.sKept, Shape.kept])]
  have hstart1 : (addRowsDims N D E wf).start j idx 1 = 0 := by
    unfold ScatterDims.start
    rw [dif_neg (by simp [ScatterDims.sKept, Shape.kept])]
  have hwin1 : (addRowsDims N D E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have h1 := congrArg (fun f => (f 1).val) he
      have hh := h 0
      simp only [hstart0, hwin0] at h0 hh
      simp only [hstart1, hwin1] at h1
      constructor
      · omega
      · omega
    · rintro ⟨he, hd⟩
      funext a
      refine Fin.ext ?_
      match a with
      | ⟨0, _⟩ =>
        show ((addRowsDims N D E wf).start j idx 0 + ((addRowsDims N D E wf).window j 0 : ℕ)).toNat = (i 0).val
        rw [hstart0, hwin0]
        omega
      | ⟨1, _⟩ =>
        show ((addRowsDims N D E wf).start j idx 1 + ((addRowsDims N D E wf).window j 1 : ℕ)).toNat = (i 1).val
        rw [hstart1, hwin1]
        omega
  · rename_i h
    constructor
    · intro he; exact absurd he (by simp)
    · rintro ⟨he, hd⟩
      exfalso
      apply h
      intro a
      match a with
      | ⟨0, _⟩ =>
        show 0 ≤ (addRowsDims N D E wf).start j idx 0 + ((addRowsDims N D E wf).window j 0 : ℕ)
          ∧ (addRowsDims N D E wf).start j idx 0 + ((addRowsDims N D E wf).window j 0 : ℕ) < (N : ℤ)
        rw [hstart0, hwin0]
        omega
      | ⟨1, _⟩ =>
        show 0 ≤ (addRowsDims N D E wf).start j idx 1 + ((addRowsDims N D E wf).window j 1 : ℕ)
          ∧ (addRowsDims N D E wf).start j idx 1 + ((addRowsDims N D E wf).window j 1 : ℕ) < ((D : ℕ) : ℤ)
        rw [hstart1, hwin1]
        omega

/-- At exact arithmetic, entry `(i, j)` of the segment sum of rows is the operand's entry plus the sum over all
    `e` of "update entry `(e, j)` if the `e`-th index is `i`, else 0". -/
theorem scatterAdd_rows_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : Fin N) (j : Fin D) :
    Host.scatterAdd (addRowsDims N D E wf) x idx upd (ix2 i j)
      = x (ix2 i j) + ∑ e : Fin E, if (idx (ix2 e (0 : Fin 1))).toInt = ((i : ℕ) : ℤ) then upd (ix2 e j) else 0 := by
  show Ideal.hostScatterAdd (addRowsDims N D E wf) x idx upd (ix2 i j) = _
  unfold Ideal.hostScatterAdd
  congr 1
  rw [Finset.sum_filter, sum_idx2]
  refine Finset.sum_congr rfl (fun e _ => ?_)
  have hcond : ∀ d : Fin D, ((addRowsDims N D E wf).resultIdx? (ix2 e d) idx = some (ix2 i j))
      ↔ ((idx (ix2 e (0 : Fin 1))).toInt = ((i : ℕ) : ℤ) ∧ d = j) := by
    intro d
    rw [resultIdx?_rows_iff wf idx (ix2 e d) (ix2 i j)]
    exact and_congr Iff.rfl ⟨fun h => Fin.ext h, fun h => congrArg Fin.val h⟩
  by_cases hP : (idx (ix2 e (0 : Fin 1))).toInt = ((i : ℕ) : ℤ)
  · rw [if_pos hP]
    rw [Finset.sum_congr rfl (fun d _ => if_congr ((hcond d).trans (and_iff_right hP)) rfl rfl)]
    rw [Finset.sum_ite_eq' Finset.univ j (fun d => upd (ix2 e d))]
    simp
  · rw [if_neg hP]
    refine Finset.sum_eq_zero (fun d _ => ?_)
    rw [if_neg]
    intro h
    exact hP ((hcond d).mp h).1

end LibRowScatter

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.KernelStages.lean ====
/-
  The idealized kernel's host stages between its three regions, as functions of the edge words, and each stage read at
  an entry.

  From the raw source and target words: the wrapped words as index columns; the degree vector (a scatter of ones at
  the wrapped targets, plus one for the self loop) and the column of row factors (its inverse square root); and the
  aggregation of a matrix of rows (gather the rows at the wrapped, clamped sources; scatter-add them at the raw targets).
-/
import proofs.«129970_j1520418423297_2_alg».proof.Proof.Gen.KernelIdeal
import proofs.«129970_j1520418423297_2_alg».proof.Proof.HostReads
import proofs.«129970_j1520418423297_2_alg».proof.Proof.LibSegmentIdx
import proofs.«129970_j1520418423297_2_alg».proof.Proof.LibRowGather
import proofs.«129970_j1520418423297_2_alg».proof.Proof.LibRowScatter
import proofs.«129970_j1520418423297_2_alg».proof.Proof.LibKeepdims
import proofs.«129970_j1520418423297_2_alg».proof.Proof.LibRowOps

set_option maxRecDepth 16384

noncomputable section

open scoped BigOperators

namespace Cert.KernelIdeal.GcnStages

open Cert.KernelIdeal Cert.KernelIdeal.Facts₀ Idealize.ShloMosaic Idealize.ShloMosaic.ValueIdx

abbrev Words := S800000.Idx → BitVec 32

/-- The source words: column 0 of the edge table. -/
def srcOf (eg : S800000x2.Idx → BitVec 32) : Words :=
  shapeCast S800000 (extractStridedSlice S1x800000 ![0, 0]
    (transpose S2x800000 [1, 0] eg transposes_S800000x2_S2x800000_1_0) slices_S2x800000_S1x800000_0_0) shapeCasts_S1x800000_S800000

/-- The target words: column 1 of the edge table. -/
def dstOf (eg : S800000x2.Idx → BitVec 32) : Words :=
  shapeCast S800000 (extractStridedSlice S1x800000 ![1, 0]
    (transpose S2x800000 [1, 0] eg transposes_S800000x2_S2x800000_1_0) slices_S2x800000_S1x800000_1_0) shapeCasts_S1x800000_S800000

def wrapVec (v : Words) : Words :=
  select (cmpi .slt v (broadcastInDim S800000 ![] bcast_S_S800000 (constantI S_ 32 0#32)))
    (addi v (broadcastInDim S800000 ![] bcast_S_S800000 (constantI S_ 32 50000#32))) v

def asColumn (v : Words) : S800000x1.Idx → BitVec 32 := broadcastInDim S800000x1 ![0] bcast_S800000_S800000x1_0 v

def degVec (dst : Words) : S50000.Idx → EReal :=
  addf (F := Ideal) (φ := .f32)
    (Host.scatterAdd scatter_S50000_S800000x1_S800000_n_0_0_1
      (broadcastInDim S50000 ![] bcast_S_S50000 (constant (F := Ideal) S_ .f32 0x00000000#32))
      (asColumn (wrapVec dst))
      (broadcastInDim S800000 ![] bcast_S_S800000 (constant (F := Ideal) S_ .f32 0x3F800000#32)))
    (broadcastInDim S50000 ![] bcast_S_S50000 (constant (F := Ideal) S_ .f32 0x3F800000#32))

def factorCol (dst : Words) : S50000x1.Idx → EReal :=
  shapeCast S50000x1 (Host.rsqrt (F := Ideal) (φ := .f32) (degVec dst)) shapeCasts_S50000_S50000x1

def aggregate128 (src dst : Words) (h : S50000x128.Idx → EReal) : S50000x128.Idx → EReal :=
  Host.scatterAdd (F := Ideal) (φ := .f32) scatter_S50000x128_S800000x1_S800000x128_1_0_0_1
    (broadcastInDim S50000x128 ![] bcast_S_S50000x128 (constant (F := Ideal) S_ .f32 0x00000000#32))
    (asColumn dst)
    (Host.gather gather_S50000x128_S800000x1_S800000x128_1_0_n_n_0_1_1128 h (asColumn (wrapVec src)))

def aggregate64 (src dst : Words) (h : S50000x64.Idx → EReal) : S50000x64.Idx → EReal :=
  Host.scatterAdd (F := Ideal) (φ := .f32) scatter_S50000x64_S800000x1_S800000x64_1_0_0_1
    (broadcastInDim S50000x64 ![] bcast_S_S50000x64 (constant (F := Ideal) S_ .f32 0x00000000#32))
    (asColumn dst)
    (Host.gather gather_S50000x64_S800000x1_S800000x64_1_0_n_n_0_1_164 h (asColumn (wrapVec src)))

def biasRow128 (b : S128.Idx → EReal) : S1x128.Idx → EReal := shapeCast S1x128 b shapeCasts_S128_S1x128
def biasRow64 (b : S64.Idx → EReal) : S1x64.Idx → EReal := shapeCast S1x64 b shapeCasts_S64_S1x64

/-! ## Read at an entry -/

theorem wrapVec_apply (v : Words) (i : S800000.Idx) : wrapVec v i = GcnSpec.wrap (v i) :=
  GcnHost.wrap_apply v _ _ i (GcnHost.splat_constI_apply _ _ _ i) (GcnHost.splat_constI_apply _ _ _ i)

theorem asColumn_apply (v : Words) (e : Fin 800000) (z : Fin 1) : asColumn v (ix2 e z) = v (ix1 e) :=
  GcnHost.column_apply ![0] rfl bcast_S800000_S800000x1_0 v e z

theorem degVec_apply (dst : Words) (i : Fin 50000) :
    degVec dst (ix1 i) = GcnSpec.degK (fun e => dst (ix1 e)) i := by
  unfold degVec GcnSpec.degK
  rw [addf_apply, GcnHost.splat_const_apply,
    show scatter_S50000_S800000x1_S800000_n_0_0_1
      = LibSegmentIdx.addVecDims 50000 800000 scatter_S50000_S800000x1_S800000_n_0_0_1_wf from rfl,
    LibSegmentIdx.scatterAdd_vec_apply, GcnHost.splat_const_apply]
  refine congrArg (· + GcnSpec.oneW) (congrArg (GcnSpec.zeroW + ·) (Finset.sum_congr rfl fun e _ => ?_))
  rw [asColumn_apply, wrapVec_apply, GcnHost.splat_const_apply]

theorem factorCol_apply (dst : Words) (i : Fin 50000) (z : Fin 1) :
    factorCol dst (ix2 i z) = GcnSpec.facK (fun e => dst (ix1 e)) i := by
  unfold factorCol GcnSpec.facK
  rw [LibKeepdims.shapeCast_col_apply, LibIdealFinite.hostRsqrt_apply, degVec_apply]

theorem aggregate128_apply (src dst : Words) (h : S50000x128.Idx → EReal) (i : Fin 50000) (k : Fin 128) :
    aggregate128 src dst h (ix2 i k)
      = GcnSpec.aggK (fun e => src (ix1 e)) (fun e => dst (ix1 e)) (fun n k => h (ix2 n k)) i k := by
  unfold aggregate128 GcnSpec.aggK
  rw [show scatter_S50000x128_S800000x1_S800000x128_1_0_0_1
      = LibRowScatter.addRowsDims 50000 128 800000 scatter_S50000x128_S800000x1_S800000x128_1_0_0_1_wf from rfl,
    LibRowScatter.scatterAdd_rows_apply, GcnHost.splat_const_apply]
  refine congrArg (GcnSpec.zeroW + ·) (Finset.sum_congr rfl fun e _ => ?_)
  rw [asColumn_apply,
    show gather_S50000x128_S800000x1_S800000x128_1_0_n_n_0_1_1128
      = LibRowGather.rowDims 50000 128 800000 gather_S50000x128_S800000x1_S800000x128_1_0_n_n_0_1_1128_wf from rfl,
    LibRowGather.gather_rows_apply (by norm_num), asColumn_apply, wrapVec_apply]

theorem aggregate64_apply (src dst : Words) (h : S50000x64.Idx → EReal) (i : Fin 50000) (j : Fin 64) :
    aggregate64 src dst h (ix2 i j)
      = GcnSpec.aggK (fun e => src (ix1 e)) (fun e => dst (ix1 e)) (fun n j => h (ix2 n j)) i j := by
  unfold aggregate64 GcnSpec.aggK
  rw [show scatter_S50000x64_S800000x1_S800000x64_1_0_0_1
      = LibRowScatter.addRowsDims 50000 64 800000 scatter_S50000x64_S800000x1_S800000x64_1_0_0_1_wf from rfl,
    LibRowScatter.scatterAdd_rows_apply, GcnHost.splat_const_apply]
  refine congrArg (GcnSpec.zeroW + ·) (Finset.sum_congr rfl fun e _ => ?_)
  rw [asColumn_apply,
    show gather_S50000x64_S800000x1_S800000x64_1_0_n_n_0_1_164
      = LibRowGather.rowDims 50000 64 800000 gather_S50000x64_S800000x1_S800000x64_1_0_n_n_0_1_164_wf from rfl,
    LibRowGather.gather_rows_apply (by norm_num), asColumn_apply, wrapVec_apply]

theorem biasRow128_apply (b : S128.Idx → EReal) (z : Fin 1) (k : Fin 128) : biasRow128 b (ix2 z k) = b (ix1 k) :=
  LibRowOps.shapeCast_row_apply b shapeCasts_S128_S1x128 z k

theorem biasRow64_apply (b : S64.Idx → EReal) (z : Fin 1) (j : Fin 64) : biasRow64 b (ix2 z j) = b (ix1 j) :=
  LibRowOps.shapeCast_row_apply b shapeCasts_S64_S1x64 z j

end Cert.KernelIdeal.GcnStages

end
-- ==== Proof.KernelValue.lean ====
/-
  The idealized kernel's result as one function of the argument arrays.

  The contents of the buffers at each boundary of @main are followed from the launch: the first stretch of host
  operations leaves the source and target words and the column of row factors; region 0 leaves the scaled dense product;
  the second stretch aggregates it along the edges; region 1 finishes the hidden layer, multiplies by the second weight
  matrix and scales; the third stretch aggregates again; region 2 adds the node's own row, scales and adds the bias.  A
  buffer that a stretch or a region does not write keeps its contents.
-/
import proofs.«129970_j1520418423297_2_alg».proof.Proof.Gen.KernelIdeal.Frame
import proofs.«129970_j1520418423297_2_alg».proof.Proof.Region0
import proofs.«129970_j1520418423297_2_alg».proof.Proof.Region1
import proofs.«129970_j1520418423297_2_alg».proof.Proof.Region2
import proofs.«129970_j1520418423297_2_alg».proof.Proof.KernelStages
import Idealize.ShloMosaic.Lib.StableHlo.Run

set_option maxRecDepth 16384
set_option maxHeartbeats 4000000

noncomputable section

namespace Cert.KernelIdeal.GcnValue

open Cert.KernelIdeal Cert.KernelIdeal.Gen Cert.KernelIdeal.GcnStages
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the first stretch -/

theorem W1_v2 : W1 m ρ c (Proc.devRef .tc main_v2) = (srcOf (m ((c : Thread nD τ).loc main_arg1))) := by
  show StableHlo.after hostOps0 (W0 m ρ c) (Proc.devRef .tc main_v2) = _
  after_results_simp
  rfl

theorem W1_v4 : W1 m ρ c (Proc.devRef .tc main_v4) = (dstOf (m ((c : Thread nD τ).loc main_arg1))) := by
  show StableHlo.after hostOps0 (W0 m ρ c) (Proc.devRef .tc main_v4) = _
  after_results_simp
  rfl

theorem W1_v17 : W1 m ρ c (Proc.devRef .tc main_v17) = (factorCol (dstOf (m ((c : Thread nD τ).loc main_arg1)))) := by
  show StableHlo.after hostOps0 (W0 m ρ c) (Proc.devRef .tc main_v17) = _
  after_results_simp
  rfl

theorem W1_arg0 : W1 m ρ c (Proc.devRef .tc main_arg0) = m ((c : Thread nD τ).loc main_arg0) := by
  show StableHlo.after hostOps0 (W0 m ρ c) (Proc.devRef .tc main_arg0) = _
  after_results_simp

theorem W1_arg2 : W1 m ρ c (Proc.devRef .tc main_arg2) = m ((c : Thread nD τ).loc main_arg2) := by
  show StableHlo.after hostOps0 (W0 m ρ c) (Proc.devRef .tc main_arg2) = _
  after_results_simp

theorem W1_arg3 : W1 m ρ c (Proc.devRef .tc main_arg3) = m ((c : Thread nD τ).loc main_arg3) := by
  show StableHlo.after hostOps0 (W0 m ρ c) (Proc.devRef .tc main_arg3) = _
  after_results_simp

theorem W1_arg4 : W1 m ρ c (Proc.devRef .tc main_arg4) = m ((c : Thread nD τ).loc main_arg4) := by
  show StableHlo.after hostOps0 (W0 m ρ c) (Proc.devRef .tc main_arg4) = _
  after_results_simp

theorem W1_arg5 : W1 m ρ c (Proc.devRef .tc main_arg5) = m ((c : Thread nD τ).loc main_arg5) := by
  show StableHlo.after hostOps0 (W0 m ρ c) (Proc.devRef .tc main_arg5) = _
  after_results_simp

/-! ## After region 0 -/

theorem W2_v18 : W2 m ρ c (Proc.devRef .tc main_v18) = (GcnRegion0.scaledProduct (m ((c : Thread nD τ).loc main_arg0)) (m ((c : Thread nD τ).loc main_arg2)) (factorCol (dstOf (m ((c : Thread nD τ).loc main_arg1))))) := by
  refine (W2_arr m ρ c 3).trans ((GcnRegion0.final (V1 m ρ) c).trans ?_)
  rw [show V1 m ρ c (Pipeline.arrRef spec0 0) = m ((c : Thread nD τ).loc main_arg0) from W1_arg0 m ρ c,
    show V1 m ρ c (Pipeline.arrRef spec0 1) = m ((c : Thread nD τ).loc main_arg2) from W1_arg2 m ρ c,
    show V1 m ρ c (Pipeline.arrRef spec0 2) = (factorCol (dstOf (m ((c : Thread nD τ).loc main_arg1)))) from W1_v17 m ρ c]

theorem W2_v2 : W2 m ρ c (Proc.devRef .tc main_v2) = (srcOf (m ((c : Thread nD τ).loc main_arg1))) :=
  (W2_of_ne m ρ c main_v2 (by decide)).trans (W1_v2 m ρ c)

theorem W2_v4 : W2 m ρ c (Proc.devRef .tc main_v4) = (dstOf (m ((c : Thread nD τ).loc main_arg1))) :=
  (W2_of_ne m ρ c main_v4 (by decide)).trans (W1_v4 m ρ c)

theorem W2_arg3 : W2 m ρ c (Proc.devRef .tc main_arg3) = m ((c : Thread nD τ).loc main_arg3) :=
  (W2_of_ne m ρ c main_arg3 (by decide)).trans (W1_arg3 m ρ c)

theorem W2_arg4 : W2 m ρ c (Proc.devRef .tc main_arg4) = m ((c : Thread nD τ).loc main_arg4) :=
  (W2_of_ne m ρ c main_arg4 (by decide)).trans (W1_arg4 m ρ c)

theorem W2_arg5 : W2 m ρ c (Proc.devRef .tc main_arg5) = m ((c : Thread nD τ).loc main_arg5) :=
  (W2_of_ne m ρ c main_arg5 (by decide)).trans (W1_arg5 m ρ c)

theorem W2_v17 : W2 m ρ c (Proc.devRef .tc main_v17) = (factorCol (dstOf (m ((c : Thread nD τ).loc main_arg1)))) :=
  (W2_arr m ρ c 2).trans ((((dat0 (V1 m ρ) c).arrAt_in 2 rfl _).trans (A_eq0 (V1 m ρ) c 2)).trans (W1_v17 m ρ c))

/-! ## After the second stretch -/

theorem W3_v28 : W3 m ρ c (Proc.devRef .tc main_v28) = (aggregate128 (srcOf (m ((c : Thread nD τ).loc main_arg1))) (dstOf (m ((c : Thread nD τ).loc main_arg1))) (GcnRegion0.scaledProduct (m ((c : Thread nD τ).loc main_arg0)) (m ((c : Thread nD τ).loc main_arg2)) (factorCol (dstOf (m ((c : Thread nD τ).loc main_arg1)))))) := by
  show StableHlo.after hostOps1 (W2 m ρ c) (Proc.devRef .tc main_v28) = _
  after_results_simp
  rw [W2_v18 m ρ c, W2_v2 m ρ c, W2_v4 m ρ c]
  rfl

theorem W3_v29 : W3 m ρ c (Proc.devRef .tc main_v29) = (biasRow128 (m ((c : Thread nD τ).loc main_arg3))) := by
  show StableHlo.after hostOps1 (W2 m ρ c) (Proc.devRef .tc main_v29) = _
  after_results_simp
  rw [W2_arg3 m ρ c]
  rfl

theorem W3_v18 : W3 m ρ c (Proc.devRef .tc main_v18) = (GcnRegion0.scaledProduct (m ((c : Thread nD τ).loc main_arg0)) (m ((c : Thread nD τ).loc main_arg2)) (factorCol (dstOf (m ((c : Thread nD τ).loc main_arg1))))) := by
  show StableHlo.after hostOps1 (W2 m ρ c) (Proc.devRef .tc main_v18) = _
  after_results_simp
  rw [W2_v18 m ρ c]

theorem W3_v17 : W3 m ρ c (Proc.devRef .tc main_v17) = (factorCol (dstOf (m ((c : Thread nD τ).loc main_arg1)))) := by
  show StableHlo.after hostOps1 (W2 m ρ c) (Proc.devRef .tc main_v17) = _
  after_results_simp
  rw [W2_v17 m ρ c]

theorem W3_v2 : W3 m ρ c (Proc.devRef .tc main_v2) = (srcOf (m ((c : Thread nD τ).loc main_arg1))) := by
  show StableHlo.after hostOps1 (W2 m ρ c) (Proc.devRef .tc main_v2) = _
  after_results_simp
  rw [W2_v2 m ρ c]

theorem W3_v4 : W3 m ρ c (Proc.devRef .tc main_v4) = (dstOf (m ((c : Thread nD τ).loc main_arg1))) := by
  show StableHlo.after hostOps1 (W2 m ρ c) (Proc.devRef .tc main_v4) = _
  after_results_simp
  rw [W2_v4 m ρ c]

theorem W3_arg4 : W3 m ρ c (Proc.devRef .tc main_arg4) = m ((c : Thread nD τ).loc main_arg4) := by
  show StableHlo.after hostOps1 (W2 m ρ c) (Proc.devRef .tc main_arg4) = _
  after_results_simp
  rw [W2_arg4 m ρ c]

theorem W3_arg5 : W3 m ρ c (Proc.devRef .tc main_arg5) = m ((c : Thread nD τ).loc main_arg5) := by
  show StableHlo.after hostOps1 (W2 m ρ c) (Proc.devRef .tc main_arg5) = _
  after_results_simp
  rw [W2_arg5 m ρ c]

/-! ## After region 1 -/

theorem W4_v30 : W4 m ρ c (Proc.devRef .tc main_v30) = (GcnRegion1.hiddenThenProduct (aggregate128 (srcOf (m ((c : Thread nD τ).loc main_arg1))) (dstOf (m ((c : Thread nD τ).loc main_arg1))) (GcnRegion0.scaledProduct (m ((c : Thread nD τ).loc main_arg0)) (m ((c : Thread nD τ).loc main_arg2)) (factorCol (dstOf (m ((c : Thread nD τ).loc main_arg1)))))) (GcnRegion0.scaledProduct (m ((c : Thread nD τ).loc main_arg0)) (m ((c : Thread nD τ).loc main_arg2)) (factorCol (dstOf (m ((c : Thread nD τ).loc main_arg1))))) (biasRow128 (m ((c : Thread nD τ).loc main_arg3))) (m ((c : Thread nD τ).loc main_arg4)) (factorCol (dstOf (m ((c : Thread nD τ).loc main_arg1))))) := by
  refine (W4_arr m ρ c 5).trans ((GcnRegion1.final (V3 m ρ) c).trans ?_)
  rw [show V3 m ρ c (Pipeline.arrRef spec1 0) = (aggregate128 (srcOf (m ((c : Thread nD τ).loc main_arg1))) (dstOf (m ((c : Thread nD τ).loc main_arg1))) (GcnRegion0.scaledProduct (m ((c : Thread nD τ).loc main_arg0)) (m ((c : Thread nD τ).loc main_arg2)) (factorCol (dstOf (m ((c : Thread nD τ).loc main_arg1)))))) from W3_v28 m ρ c,
    show V3 m ρ c (Pipeline.arrRef spec1 1) = (GcnRegion0.scaledProduct (m ((c : Thread nD τ).loc main_arg0)) (m ((c : Thread nD τ).loc main_arg2)) (factorCol (dstOf (m ((c : Thread nD τ).loc main_arg1))))) from W3_v18 m ρ c,
    show V3 m ρ c (Pipeline.arrRef spec1 2) = (biasRow128 (m ((c : Thread nD τ).loc main_arg3))) from W3_v29 m ρ c,
    show V3 m ρ c (Pipeline.arrRef spec1 3) = m ((c : Thread nD τ).loc main_arg4) from W3_arg4 m ρ c,
    show V3 m ρ c (Pipeline.arrRef spec1 4) = (factorCol (dstOf (m ((c : Thread nD τ).loc main_arg1)))) from W3_v17 m ρ c]

theorem W4_v2 : W4 m ρ c (Proc.devRef .tc main_v2) = (srcOf (m ((c : Thread nD τ).loc main_arg1))) :=
  (W4_of_ne m ρ c main_v2 (by decide)).trans (W3_v2 m ρ c)

theorem W4_v4 : W4 m ρ c (Proc.devRef .tc main_v4) = (dstOf (m ((c : Thread nD τ).loc main_arg1))) :=
  (W4_of_ne m ρ c main_v4 (by decide)).trans (W3_v4 m ρ c)

theorem W4_arg5 : W4 m ρ c (Proc.devRef .tc main_arg5) = m ((c : Thread nD τ).loc main_arg5) :=
  (W4_of_ne m ρ c main_arg5 (by decide)).trans (W3_arg5 m ρ c)

theorem W4_v17 : W4 m ρ c (Proc.devRef .tc main_v17) = (factorCol (dstOf (m ((c : Thread nD τ).loc main_arg1)))) :=
  (W4_arr m ρ c 4).trans ((((dat1 (V3 m ρ) c).arrAt_in 4 rfl _).trans (A_eq1 (V3 m ρ) c 4)).trans (W3_v17 m ρ c))

/-! ## After the third stretch -/

theorem W5_v40 : W5 m ρ c (Proc.devRef .tc main_v40) = (aggregate64 (srcOf (m ((c : Thread nD τ).loc main_arg1))) (dstOf (m ((c : Thread nD τ).loc main_arg1))) (GcnRegion1.hiddenThenProduct (aggregate128 (srcOf (m ((c : Thread nD τ).loc main_arg1))) (dstOf (m ((c : Thread nD τ).loc main_arg1))) (GcnRegion0.scaledProduct (m ((c : Thread nD τ).loc main_arg0)) (m ((c : Thread nD τ).loc main_arg2)) (factorCol (dstOf (m ((c : Thread nD τ).loc main_arg1)))))) (GcnRegion0.scaledProduct (m ((c : Thread nD τ).loc main_arg0)) (m ((c : Thread nD τ).loc main_arg2)) (factorCol (dstOf (m ((c : Thread nD τ).loc main_arg1))))) (biasRow128 (m ((c : Thread nD τ).loc main_arg3))) (m ((c : Thread nD τ).loc main_arg4)) (factorCol (dstOf (m ((c : Thread nD τ).loc main_arg1)))))) := by
  show StableHlo.after hostOps2 (W4 m ρ c) (Proc.devRef .tc main_v40) = _
  after_results_simp
  rw [W4_v30 m ρ c, W4_v2 m ρ c, W4_v4 m ρ c]
  rfl

theorem W5_v41 : W5 m ρ c (Proc.devRef .tc main_v41) = (biasRow64 (m ((c : Thread nD τ).loc main_arg5))) := by
  show StableHlo.after hostOps2 (W4 m ρ c) (Proc.devRef .tc main_v41) = _
  after_results_simp
  rw [W4_arg5 m ρ c]
  rfl

theorem W5_v30 : W5 m ρ c (Proc.devRef .tc main_v30) = (GcnRegion1.hiddenThenProduct (aggregate128 (srcOf (m ((c : Thread nD τ).loc main_arg1))) (dstOf (m ((c : Thread nD τ).loc main_arg1))) (GcnRegion0.scaledProduct (m ((c : Thread nD τ).loc main_arg0)) (m ((c : Thread nD τ).loc main_arg2)) (factorCol (dstOf (m ((c : Thread nD τ).loc main_arg1)))))) (GcnRegion0.scaledProduct (m ((c : Thread nD τ).loc main_arg0)) (m ((c : Thread nD τ).loc main_arg2)) (factorCol (dstOf (m ((c : Thread nD τ).loc main_arg1))))) (biasRow128 (m ((c : Thread nD τ).loc main_arg3))) (m ((c : Thread nD τ).loc main_arg4)) (factorCol (dstOf (m ((c : Thread nD τ).loc main_arg1))))) := by
  show StableHlo.after hostOps2 (W4 m ρ c) (Proc.devRef .tc main_v30) = _
  after_results_simp
  rw [W4_v30 m ρ c]

theorem W5_v17 : W5 m ρ c (Proc.devRef .tc main_v17) = (factorCol (dstOf (m ((c : Thread nD τ).loc main_arg1)))) := by
  show StableHlo.after hostOps2 (W4 m ρ c) (Proc.devRef .tc main_v17) = _
  after_results_simp
  rw [W4_v17 m ρ c]

/-! ## After region 2: the result -/

/-- The result buffer ends holding: aggregate plus own row of the second layer's scaled rows, scaled, plus the bias. -/
theorem W6_result : W6 m ρ c (Proc.devRef .tc main_v42) = (GcnRegion2.scaledPlusBias (aggregate64 (srcOf (m ((c : Thread nD τ).loc main_arg1))) (dstOf (m ((c : Thread nD τ).loc main_arg1))) (GcnRegion1.hiddenThenProduct (aggregate128 (srcOf (m ((c : Thread nD τ).loc main_arg1))) (dstOf (m ((c : Thread nD τ).loc main_arg1))) (GcnRegion0.scaledProduct (m ((c : Thread nD τ).loc main_arg0)) (m ((c : Thread nD τ).loc main_arg2)) (factorCol (dstOf (m ((c : Thread nD τ).loc main_arg1)))))) (GcnRegion0.scaledProduct (m ((c : Thread nD τ).loc main_arg0)) (m ((c : Thread nD τ).loc main_arg2)) (factorCol (dstOf (m ((c : Thread nD τ).loc main_arg1))))) (biasRow128 (m ((c : Thread nD τ).loc main_arg3))) (m ((c : Thread nD τ).loc main_arg4)) (factorCol (dstOf (m ((c : Thread nD τ).loc main_arg1)))))) (GcnRegion1.hiddenThenProduct (aggregate128 (srcOf (m ((c : Thread nD τ).loc main_arg1))) (dstOf (m ((c : Thread nD τ).loc main_arg1))) (GcnRegion0.scaledProduct (m ((c : Thread nD τ).loc main_arg0)) (m ((c : Thread nD τ).loc main_arg2)) (factorCol (dstOf (m ((c : Thread nD τ).loc main_arg1)))))) (GcnRegion0.scaledProduct (m ((c : Thread nD τ).loc main_arg0)) (m ((c : Thread nD τ).loc main_arg2)) (factorCol (dstOf (m ((c : Thread nD τ).loc main_arg1))))) (biasRow128 (m ((c : Thread nD τ).loc main_arg3))) (m ((c : Thread nD τ).loc main_arg4)) (factorCol (dstOf (m ((c : Thread nD τ).loc main_arg1))))) (biasRow64 (m ((c : Thread nD τ).loc main_arg5))) (factorCol (dstOf (m ((c : Thread nD τ).loc main_arg1))))) := by
  refine (W6_arr m ρ c 4).trans ((GcnRegion2.final (V5 m ρ) c).trans ?_)
  rw [show V5 m ρ c (Pipeline.arrRef spec2 0) = (aggregate64 (srcOf (m ((c : Thread nD τ).loc main_arg1))) (dstOf (m ((c : Thread nD τ).loc main_arg1))) (GcnRegion1.hiddenThenProduct (aggregate128 (srcOf (m ((c : Thread nD τ).loc main_arg1))) (dstOf (m ((c : Thread nD τ).loc main_arg1))) (GcnRegion0.scaledProduct (m ((c : Thread nD τ).loc main_arg0)) (m ((c : Thread nD τ).loc main_arg2)) (factorCol (dstOf (m ((c : Thread nD τ).loc main_arg1)))))) (GcnRegion0.scaledProduct (m ((c : Thread nD τ).loc main_arg0)) (m ((c : Thread nD τ).loc main_arg2)) (factorCol (dstOf (m ((c : Thread nD τ).loc main_arg1))))) (biasRow128 (m ((c : Thread nD τ).loc main_arg3))) (m ((c : Thread nD τ).loc main_arg4)) (factorCol (dstOf (m ((c : Thread nD τ).loc main_arg1)))))) from W5_v40 m ρ c,
    show V5 m ρ c (Pipeline.arrRef spec2 1) = (GcnRegion1.hiddenThenProduct (aggregate128 (srcOf (m ((c : Thread nD τ).loc main_arg1))) (dstOf (m ((c : Thread nD τ).loc main_arg1))) (GcnRegion0.scaledProduct (m ((c : Thread nD τ).loc main_arg0)) (m ((c : Thread nD τ).loc main_arg2)) (factorCol (dstOf (m ((c : Thread nD τ).loc main_arg1)))))) (GcnRegion0.scaledProduct (m ((c : Thread nD τ).loc main_arg0)) (m ((c : Thread nD τ).loc main_arg2)) (factorCol (dstOf (m ((c : Thread nD τ).loc main_arg1))))) (biasRow128 (m ((c : Thread nD τ).loc main_arg3))) (m ((c : Thread nD τ).loc main_arg4)) (factorCol (dstOf (m ((c : Thread nD τ).loc main_arg1))))) from W5_v30 m ρ c,
    show V5 m ρ c (Pipeline.arrRef spec2 2) = (biasRow64 (m ((c : Thread nD τ).loc main_arg5))) from W5_v41 m ρ c,
    show V5 m ρ c (Pipeline.arrRef spec2 3) = (factorCol (dstOf (m ((c : Thread nD τ).loc main_arg1)))) from W5_v17 m ρ c]

end Cert.KernelIdeal.GcnValue

end
-- ==== Proof.KernelEntry.lean ====
/-
  The idealized kernel's result read at an entry: the composition of the three regions' functions and the two
  aggregations is arrangement K of the specification.
-/
import proofs.«129970_j1520418423297_2_alg».proof.Proof.Region0
import proofs.«129970_j1520418423297_2_alg».proof.Proof.Region1
import proofs.«129970_j1520418423297_2_alg».proof.Proof.Region2
import proofs.«129970_j1520418423297_2_alg».proof.Proof.KernelStages

set_option maxRecDepth 16384

noncomputable section

open scoped BigOperators

namespace Cert.KernelIdeal.GcnEntry

open Cert.KernelIdeal Cert.KernelIdeal.GcnStages Idealize.ShloMosaic Idealize.ShloMosaic.ValueIdx

variable (X : S50000x128.Idx → EReal) (E : S800000x2.Idx → BitVec 32) (W1 : S128x128.Idx → EReal)
  (b1 : S128.Idx → EReal) (W2 : S128x64.Idx → EReal) (b2 : S64.Idx → EReal)

abbrev srcW : Fin 800000 → BitVec 32 := fun e => srcOf E (ix1 e)
abbrev dstW : Fin 800000 → BitVec 32 := fun e => dstOf E (ix1 e)
abbrev featM : Fin 50000 → Fin 128 → EReal := fun i l => X (ix2 i l)
abbrev w1M : Fin 128 → Fin 128 → EReal := fun l k => W1 (ix2 l k)
abbrev b1V : Fin 128 → EReal := fun k => b1 (ix1 k)
abbrev w2M : Fin 128 → Fin 64 → EReal := fun k j => W2 (ix2 k j)
abbrev b2V : Fin 64 → EReal := fun j => b2 (ix1 j)

/-- The first layer's scaled rows. -/
abbrev rows1 : S50000x128.Idx → EReal := GcnRegion0.scaledProduct X W1 (factorCol (dstOf E))

/-- The second layer's scaled rows. -/
abbrev rows2 : S50000x64.Idx → EReal :=
  GcnRegion1.hiddenThenProduct (aggregate128 (srcOf E) (dstOf E) (rows1 X E W1)) (rows1 X E W1) (biasRow128 b1) W2
    (factorCol (dstOf E))

/-- The result array. -/
abbrev result : S50000x64.Idx → EReal :=
  GcnRegion2.scaledPlusBias (aggregate64 (srcOf E) (dstOf E) (rows2 X E W1 b1 W2)) (rows2 X E W1 b1 W2) (biasRow64 b2)
    (factorCol (dstOf E))

/-- The three regions' functions at an entry given by its two coordinates. -/
theorem scaledProduct_apply (x : S50000x128.Idx → EReal) (w : S128x128.Idx → EReal) (d : S50000x1.Idx → EReal)
    (n : Fin 50000) (k : Fin 128) :
    GcnRegion0.scaledProduct x w d (ix2 n k)
      = (∑ l : Fin 128, x (ix2 n l) * w (ix2 l k)) * d (ix2 n (0 : Fin 1)) := rfl

theorem hiddenThenProduct_apply (a s : S50000x128.Idx → EReal) (b : S1x128.Idx → EReal) (w : S128x64.Idx → EReal)
    (d : S50000x1.Idx → EReal) (n : Fin 50000) (j : Fin 64) :
    GcnRegion1.hiddenThenProduct a s b w d (ix2 n j)
      = (∑ k : Fin 128, max ((a (ix2 n k) + s (ix2 n k)) * d (ix2 n (0 : Fin 1)) + b (ix2 (0 : Fin 1) k))
          (Ideal.ofBits .f32 0x00000000#32) * w (ix2 k j)) * d (ix2 n (0 : Fin 1)) := rfl

theorem scaledPlusBias_apply (a s : S50000x64.Idx → EReal) (b : S1x64.Idx → EReal) (d : S50000x1.Idx → EReal)
    (n : Fin 50000) (j : Fin 64) :
    GcnRegion2.scaledPlusBias a s b d (ix2 n j)
      = (a (ix2 n j) + s (ix2 n j)) * d (ix2 n (0 : Fin 1)) + b (ix2 (0 : Fin 1) j) := rfl

theorem rows1_apply (n : Fin 50000) (k : Fin 128) :
    rows1 X E W1 (ix2 n k) = GcnSpec.scaled1 (dstW E) (featM X) (w1M W1) n k := by
  refine (scaledProduct_apply _ _ _ n k).trans ?_
  rw [factorCol_apply]
  rfl

theorem rows2_apply (n : Fin 50000) (j : Fin 64) :
    rows2 X E W1 b1 W2 (ix2 n j) = GcnSpec.scaled2 (srcW E) (dstW E) (featM X) (w1M W1) (b1V b1) (w2M W2) n j := by
  have hrows : (fun n k => rows1 X E W1 (ix2 n k)) = GcnSpec.scaled1 (dstW E) (featM X) (w1M W1) :=
    funext fun n => funext fun k => rows1_apply X E W1 n k
  have hk : ∀ k : Fin 128,
      max ((aggregate128 (srcOf E) (dstOf E) (rows1 X E W1) (ix2 n k) + rows1 X E W1 (ix2 n k))
          * factorCol (dstOf E) (ix2 n (0 : Fin 1)) + biasRow128 b1 (ix2 (0 : Fin 1) k)) (Ideal.ofBits .f32 0x00000000#32)
        = GcnSpec.hiddenK (srcW E) (dstW E) (featM X) (w1M W1) (b1V b1) n k := by
    intro k
    rw [aggregate128_apply, rows1_apply, biasRow128_apply, factorCol_apply, hrows]
    rfl
  refine (hiddenThenProduct_apply _ _ _ _ _ n j).trans ?_
  simp only [hk]
  rw [factorCol_apply]
  rfl

/-- THE KERNEL'S RESULT at (i, j) is arrangement K. -/
theorem result_apply (i : Fin 50000) (j : Fin 64) :
    result X E W1 b1 W2 b2 (ix2 i j)
      = GcnSpec.outK (srcW E) (dstW E) (featM X) (w1M W1) (b1V b1) (w2M W2) (b2V b2) i j := by
  refine (scaledPlusBias_apply _ _ _ _ i j).trans ?_
  unfold GcnSpec.outK
  rw [factorCol_apply, aggregate64_apply, rows2_apply, biasRow64_apply,
    show (fun n j => rows2 X E W1 b1 W2 (ix2 n j))
        = GcnSpec.scaled2 (srcW E) (dstW E) (featM X) (w1M W1) (b1V b1) (w2M W2) from
      funext fun n => funext fun j => rows2_apply X E W1 b1 W2 n j]

end Cert.KernelIdeal.GcnEntry

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.ReferenceValue.lean ====
/-
  The idealized reference's result read at an entry.

  The reference joins the 50000 self loops to the edge list, counts degrees over the joined list, gathers the two
  factors of every entry, and per layer gathers the dense rows at the sources, weighs them, and scatter-adds them at
  the raw targets.  Read one operation at a time, its result at (i, j) is arrangement R of the specification.
-/
import proofs.«129970_j1520418423297_2_alg».proof.Proof.Gen.ReferenceIdeal.Read
import proofs.«129970_j1520418423297_2_alg».proof.Proof.HostReads
import proofs.«129970_j1520418423297_2_alg».proof.Proof.LibSegmentIdx
import proofs.«129970_j1520418423297_2_alg».proof.Proof.LibRowGather
import proofs.«129970_j1520418423297_2_alg».proof.Proof.LibRowScatter
import proofs.«129970_j1520418423297_2_alg».proof.Proof.LibMatIdx

set_option maxRecDepth 16384

noncomputable section

open scoped BigOperators

namespace Cert.ReferenceIdeal.GcnValue

open Cert.ReferenceIdeal Cert.ReferenceIdeal.Facts₀ Cert.ReferenceIdeal.Read
open Idealize.ShloMosaic Idealize.ShloMosaic.ValueIdx

variable (x0 : S50000x128.Idx → EReal) (x1 : S800000x2.Idx → BitVec 32) (x2 : S128x128.Idx → EReal)
  (x3 : S128.Idx → EReal) (x4 : S128x64.Idx → EReal) (x5 : S64.Idx → EReal)

/-- The source and target words, the feature matrix, the weights and the biases by coordinates. -/
abbrev srcW : Fin 800000 → BitVec 32 := fun e => val_main_v3 (F := Ideal) x1 (ix1 e)
abbrev dstW : Fin 800000 → BitVec 32 := fun e => val_main_v6 (F := Ideal) x1 (ix1 e)
abbrev featM : Fin 50000 → Fin 128 → EReal := fun i l => x0 (ix2 i l)
abbrev w1M : Fin 128 → Fin 128 → EReal := fun l k => x2 (ix2 l k)
abbrev b1V : Fin 128 → EReal := fun k => x3 (ix1 k)
abbrev w2M : Fin 128 → Fin 64 → EReal := fun k j => x4 (ix2 k j)
abbrev b2V : Fin 64 → EReal := fun j => x5 (ix1 j)

/-! ## Layout operations over the joined list -/

/-- The edge words followed by the node numbers, at entry e'. -/
theorem joined_apply (a : S800000.Idx → BitVec 32) (e' : Fin 850000) :
    concatenate S850000 0 [⟨S800000, a⟩, ⟨S50000, val_main_v1 (F := Ideal)⟩] concatenates_S800000_S50000_S850000_d0 (ix1 e')
      = GcnSpec.cat (fun e => a (ix1 e)) e' := by
  unfold GcnSpec.cat
  split
  · rename_i h
    exact concatenate_pair_apply_left (0 : Fin S850000.rank) a _ concatenates_S800000_S50000_S850000_d0 (ix1 e') rfl
      (ix1 ⟨e'.val, h⟩) (fun b => match b with | ⟨0, _⟩ => rfl)
  · rename_i h
    have h2 : e'.val - 800000 < 50000 := by have := e'.isLt; omega
    refine (concatenate_pair_apply_right (0 : Fin S850000.rank) a _ concatenates_S800000_S50000_S850000_d0 (ix1 e') rfl rfl
      (ix1 ⟨e'.val - 800000, h2⟩) (fun b hb => absurd (Fin.ext (by have hb1 : b.val < 1 := b.isLt; show b.val = 0; omega)) hb) ?_).trans rfl
    show (e'.val - 800000) + 800000 = e'.val
    omega

theorem src_joined (e' : Fin 850000) : val_main_v4 (F := Ideal) x1 (ix1 e') = GcnSpec.cat (srcW x1) e' := by
  unfold val_main_v4; exact joined_apply _ e'

theorem dst_joined (e' : Fin 850000) : val_main_v7 (F := Ideal) x1 (ix1 e') = GcnSpec.cat (dstW x1) e' := by
  unfold val_main_v7; exact joined_apply _ e'

theorem wrapped (v : S850000.Idx → BitVec 32) (i : S850000.Idx) :
    select (cmpi .slt v (broadcastInDim S850000 ![] bcast_S_S850000 (constantI S_ 32 0#32)))
      (addi v (broadcastInDim S850000 ![] bcast_S_S850000 (constantI S_ 32 50000#32))) v i = GcnSpec.wrap (v i) :=
  GcnHost.wrap_apply v _ _ i (GcnHost.splat_constI_apply _ _ _ i) (GcnHost.splat_constI_apply _ _ _ i)

theorem wrapped_v13 (i : S850000.Idx) : val_main_v13 (F := Ideal) x1 i = GcnSpec.wrap (val_main_v7 (F := Ideal) x1 i) := by
  unfold val_main_v13 val_main_v10 val_main_v12 val_main_v9 val_main_v11 val_main_c val_main_c_0
  exact wrapped _ i

theorem wrapped_v22 (i : S850000.Idx) : val_main_v22 (F := Ideal) x1 i = GcnSpec.wrap (val_main_v4 (F := Ideal) x1 i) := by
  unfold val_main_v22 val_main_v19 val_main_v21 val_main_v18 val_main_v20 val_main_c_2 val_main_c_3
  exact wrapped _ i

theorem wrapped_v29 (i : S850000.Idx) : val_main_v29 (F := Ideal) x1 i = GcnSpec.wrap (val_main_v7 (F := Ideal) x1 i) := by
  unfold val_main_v29 val_main_v26 val_main_v28 val_main_v25 val_main_v27 val_main_c_4 val_main_c_5
  exact wrapped _ i

theorem wrapped_v39 (i : S850000.Idx) : val_main_v39 (F := Ideal) x1 i = GcnSpec.wrap (val_main_v4 (F := Ideal) x1 i) := by
  unfold val_main_v39 val_main_v36 val_main_v38 val_main_v35 val_main_v37 val_main_c_6 val_main_c_7
  exact wrapped _ i

theorem wrapped_v56 (i : S850000.Idx) : val_main_v56 (F := Ideal) x1 i = GcnSpec.wrap (val_main_v4 (F := Ideal) x1 i) := by
  unfold val_main_v56 val_main_v53 val_main_v55 val_main_v52 val_main_v54 val_main_c_9 val_main_c_10
  exact wrapped _ i

theorem column {α : Type} (v : S850000.Idx → α) (e' : Fin 850000) (z : Fin 1) :
    broadcastInDim S850000x1 ![0] bcast_S850000_S850000x1_0 v (ix2 e' z) = v (ix1 e') :=
  GcnHost.column_apply ![0] rfl bcast_S850000_S850000x1_0 v e' z

/-! ## Degrees and factors -/

theorem scatter_count (x : S50000.Idx → EReal) (idx : S850000x1.Idx → BitVec 32) (upd : S850000.Idx → EReal) (n : Fin 50000) :
    Host.scatterAdd (F := Ideal) (φ := .f32) scatter_S50000_S850000x1_S850000_n_0_0_1 x idx upd (ix1 n)
      = x (ix1 n) + ∑ e' : Fin 850000, if (idx (ix2 e' (0 : Fin 1))).toInt = ((n : ℕ) : ℤ) then upd (ix1 e') else 0 := by
  rw [show scatter_S50000_S850000x1_S850000_n_0_0_1
    = LibSegmentIdx.addVecDims 50000 850000 scatter_S50000_S850000x1_S850000_n_0_0_1_wf from rfl]
  exact LibSegmentIdx.scatterAdd_vec_apply _ x idx upd (ix1 n)

theorem degree (n : Fin 50000) : val_main_v16 (F := Ideal) x1 (ix1 n) = GcnSpec.degR (dstW x1) n := by
  unfold val_main_v16 GcnSpec.degR
  rw [scatter_count]
  unfold val_main_v8 val_main_cst
  rw [GcnHost.splat_const_apply]
  refine congrArg (GcnSpec.zeroW + ·) (Finset.sum_congr rfl fun e' _ => ?_)
  unfold val_main_v14 val_main_v15 val_main_cst_1
  rw [column, wrapped_v13, dst_joined, GcnHost.splat_const_apply]

theorem factor (n : Fin 50000) : val_main_v17 (F := Ideal) x1 (ix1 n) = GcnSpec.facR (dstW x1) n := by
  unfold val_main_v17 GcnSpec.facR
  rw [LibIdealFinite.hostRsqrt_apply, degree]

theorem gather_factor (x : S50000.Idx → EReal) (idx : S850000x1.Idx → BitVec 32) (e' : Fin 850000) :
    Host.gather gather_S50000_S850000x1_S850000_n_0_n_n_0_1_1 x idx (ix1 e')
      = x (ix1 (GcnSpec.row (idx (ix2 e' (0 : Fin 1))))) := by
  rw [show gather_S50000_S850000x1_S850000_n_0_n_n_0_1_1
    = LibSegmentIdx.takeVecDims 50000 850000 gather_S50000_S850000x1_S850000_n_0_n_n_0_1_1_wf from rfl]
  exact LibSegmentIdx.gather_vec_apply (by norm_num) _ x idx (ix1 e')

theorem weight (e' : Fin 850000) :
    val_main_v32 (F := Ideal) x1 (ix1 e') = GcnSpec.weightOf (srcW x1) (dstW x1) (GcnSpec.facR (dstW x1)) e' := by
  unfold val_main_v32 val_main_v24 val_main_v31 GcnSpec.weightOf
  rw [mulf_apply, gather_factor, gather_factor]
  unfold val_main_v23 val_main_v30
  rw [column, column, wrapped_v22, wrapped_v29, src_joined, dst_joined, factor, factor]

theorem weight_col (e' : Fin 850000) (z : Fin 1) :
    val_main_v33 (F := Ideal) x1 (ix2 e' z) = GcnSpec.weightOf (srcW x1) (dstW x1) (GcnSpec.facR (dstW x1)) e' := by
  unfold val_main_v33
  rw [column, weight]

/-! ## Layer 1 -/

theorem dense1 (n : Fin 50000) (k : Fin 128) :
    val_main_v34 (F := Ideal) x0 x2 (ix2 n k) = GcnSpec.dense1 (featM x0) (w1M x2) n k := by
  unfold val_main_v34 GcnSpec.dense1
  exact LibMatIdx.dot2_apply dot_S50000x128_S128x128_S50000x128_1_0_0_1_n_n rfl rfl lhs_main_v34_0 lhs_main_v34_1
    rhs_main_v34_0 rhs_main_v34_1 none x0 x2 (ix2 n k)

theorem message1 (e' : Fin 850000) (k : Fin 128) :
    val_main_v43 (F := Ideal) x0 x1 x2 (ix2 e' k)
      = GcnSpec.dense1 (featM x0) (w1M x2) (GcnSpec.row (GcnSpec.wrap (GcnSpec.cat (srcW x1) e'))) k
        * GcnSpec.weightOf (srcW x1) (dstW x1) (GcnSpec.facR (dstW x1)) e' := by
  unfold val_main_v43 val_main_v41
  rw [mulf_apply, show gather_S50000x128_S850000x1_S850000x128_1_0_n_n_0_1_1128
      = LibRowGather.rowDims 50000 128 850000 gather_S50000x128_S850000x1_S850000x128_1_0_n_n_0_1_1128_wf from rfl,
    LibRowGather.gather_rows_apply (by norm_num)]
  unfold val_main_v40
  rw [column, wrapped_v39, src_joined, dense1, val_main_v42_apply,
    show idx_main_v42 (ix2 e' k) = ix2 e' (0 : Fin 1) from funext fun a => match a with | ⟨0, _⟩ => rfl | ⟨1, _⟩ => rfl,
    weight_col]

theorem aggregate1 (i : Fin 50000) (k : Fin 128) :
    val_main_v46 (F := Ideal) x0 x1 x2 (ix2 i k)
      = GcnSpec.aggR (srcW x1) (dstW x1) (GcnSpec.facR (dstW x1)) (GcnSpec.dense1 (featM x0) (w1M x2)) i k := by
  unfold val_main_v46 GcnSpec.aggR
  rw [show scatter_S50000x128_S850000x1_S850000x128_1_0_0_1
      = LibRowScatter.addRowsDims 50000 128 850000 scatter_S50000x128_S850000x1_S850000x128_1_0_0_1_wf from rfl,
    LibRowScatter.scatterAdd_rows_apply]
  unfold val_main_v44 val_main_cst_8
  rw [GcnHost.splat_const_apply]
  refine congrArg (GcnSpec.zeroW + ·) (Finset.sum_congr rfl fun e' _ => ?_)
  unfold val_main_v45
  rw [column, dst_joined, message1]

theorem bias1 (i : Fin 50000) (k : Fin 128) : val_main_v48 (F := Ideal) x3 (ix2 i k) = x3 (ix1 k) := by
  rw [val_main_v48_apply, val_main_v47_apply]
  exact congrArg x3 (funext fun a => match a with | ⟨0, _⟩ => rfl)

theorem hidden (i : Fin 50000) (k : Fin 128) :
    val_main_v50 (F := Ideal) x0 x1 x2 x3 (ix2 i k)
      = GcnSpec.hiddenR (srcW x1) (dstW x1) (featM x0) (w1M x2) (b1V x3) i k := by
  unfold val_main_v50 val_main_v49 val_main_call0_v0 val_main_call0_cst GcnSpec.hiddenR
  rw [maximumf_apply, addf_apply, aggregate1, bias1, GcnHost.splat_const_apply]

/-! ## Layer 2 -/

theorem dense2 (n : Fin 50000) (j : Fin 64) :
    val_main_v51 (F := Ideal) x0 x1 x2 x3 x4 (ix2 n j)
      = GcnSpec.dense2 (srcW x1) (dstW x1) (featM x0) (w1M x2) (b1V x3) (w2M x4) n j := by
  unfold val_main_v51 GcnSpec.dense2
  refine (LibMatIdx.dot2_apply dot_S50000x128_S128x64_S50000x64_1_0_0_1_n_n rfl rfl lhs_main_v51_0 lhs_main_v51_1
    rhs_main_v51_0 rhs_main_v51_1 none _ x4 (ix2 n j)).trans (Finset.sum_congr rfl fun k _ => ?_)
  exact congrArg (· * x4 (ix2 k j)) (hidden x0 x1 x2 x3 n k)

theorem message2 (e' : Fin 850000) (j : Fin 64) :
    val_main_v60 (F := Ideal) x0 x1 x2 x3 x4 (ix2 e' j)
      = GcnSpec.dense2 (srcW x1) (dstW x1) (featM x0) (w1M x2) (b1V x3) (w2M x4)
          (GcnSpec.row (GcnSpec.wrap (GcnSpec.cat (srcW x1) e'))) j
        * GcnSpec.weightOf (srcW x1) (dstW x1) (GcnSpec.facR (dstW x1)) e' := by
  unfold val_main_v60 val_main_v58
  rw [mulf_apply, show gather_S50000x64_S850000x1_S850000x64_1_0_n_n_0_1_164
      = LibRowGather.rowDims 50000 64 850000 gather_S50000x64_S850000x1_S850000x64_1_0_n_n_0_1_164_wf from rfl,
    LibRowGather.gather_rows_apply (by norm_num)]
  unfold val_main_v57
  rw [column, wrapped_v56, src_joined, dense2, val_main_v59_apply,
    show idx_main_v59 (ix2 e' j) = ix2 e' (0 : Fin 1) from funext fun a => match a with | ⟨0, _⟩ => rfl | ⟨1, _⟩ => rfl,
    weight_col]

theorem aggregate2 (i : Fin 50000) (j : Fin 64) :
    val_main_v63 (F := Ideal) x0 x1 x2 x3 x4 (ix2 i j)
      = GcnSpec.aggR (srcW x1) (dstW x1) (GcnSpec.facR (dstW x1))
          (GcnSpec.dense2 (srcW x1) (dstW x1) (featM x0) (w1M x2) (b1V x3) (w2M x4)) i j := by
  unfold val_main_v63 GcnSpec.aggR
  rw [show scatter_S50000x64_S850000x1_S850000x64_1_0_0_1
      = LibRowScatter.addRowsDims 50000 64 850000 scatter_S50000x64_S850000x1_S850000x64_1_0_0_1_wf from rfl,
    LibRowScatter.scatterAdd_rows_apply]
  unfold val_main_v61 val_main_cst_11
  rw [GcnHost.splat_const_apply]
  refine congrArg (GcnSpec.zeroW + ·) (Finset.sum_congr rfl fun e' _ => ?_)
  unfold val_main_v62
  rw [column, dst_joined, message2]

theorem bias2 (i : Fin 50000) (j : Fin 64) : val_main_v65 (F := Ideal) x5 (ix2 i j) = x5 (ix1 j) := by
  rw [val_main_v65_apply, val_main_v64_apply]
  exact congrArg x5 (funext fun a => match a with | ⟨0, _⟩ => rfl)

/-- THE REFERENCE'S RESULT at (i, j) is arrangement R. -/
theorem result_apply (i : Fin 50000) (j : Fin 64) :
    val_main_v66 (F := Ideal) x0 x1 x2 x3 x4 x5 (ix2 i j)
      = GcnSpec.outR (srcW x1) (dstW x1) (featM x0) (w1M x2) (b1V x3) (w2M x4) (b2V x5) i j := by
  unfold val_main_v66 GcnSpec.outR
  rw [addf_apply, aggregate2, bias2]

end Cert.ReferenceIdeal.GcnValue

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.FiniteInputs.lean ====
/-
  The precondition says every float input is a real number.

  The printed predicate is the conjunction, over the five float arguments, of "the and-reduction over all entries of
  |x| < +inf is true".  Each conjunct says its array is the image of its real parts.
-/
import proofs.«129970_j1520418423297_2_alg».proof.Pre_finite_inputs
import proofs.«129970_j1520418423297_2_alg».proof.Proof.Gen.Pre_finite_inputs
import proofs.«129970_j1520418423297_2_alg».proof.Proof.LibFiniteEntries
import proofs.«129970_j1520418423297_2_alg».proof.Proof.LibERealMatrix
import proofs.«129970_j1520418423297_2_alg».proof.Proof.HostReads
import Idealize.ShloMosaic.Lib.Affine

set_option maxRecDepth 16384

noncomputable section

namespace Cert.Pre_finite_inputs.GcnFinite

open Cert.Pre_finite_inputs Cert.Pre_finite_inputs.Facts Idealize.ShloMosaic LibERealMatrix

theorem fin_of_image {ι : Type} {x : ι → EReal} (h : x = fun i => (((x i).toReal : ℝ) : EReal)) (i : ι) : Fin' (x i) := by
  rw [congrFun h i]; exact Fin'.coe _

/-- Under the precondition every entry of the features, both weight matrices and both biases is a real number. -/
theorem all_real (a0 : FVec Ideal S50000x128 .f32) (a1 : IVec S800000x2 32) (a2 : FVec Ideal S128x128 .f32)
    (a3 : FVec Ideal S128 .f32) (a4 : FVec Ideal S128x64 .f32) (a5 : FVec Ideal S64 .f32)
    (h : fn (F := Ideal) a0 a1 a2 a3 a4 a5 = fun _ => 1#1) :
    (∀ i, Fin' (a0 i)) ∧ (∀ i, Fin' (a2 i)) ∧ (∀ i, Fin' (a3 i)) ∧ (∀ i, Fin' (a4 i)) ∧ (∀ i, Fin' (a5 i)) := by
  have h0 := congrFun h (fun a => a.elim0)
  dsimp only [fn, fn_part1] at h0
  obtain ⟨h1234, h5⟩ := IntOp.andi_eq_one.mp h0
  obtain ⟨h123, h4⟩ := IntOp.andi_eq_one.mp h1234
  obtain ⟨h12, h3⟩ := IntOp.andi_eq_one.mp h123
  obtain ⟨h1, h2⟩ := IntOp.andi_eq_one.mp h12
  exact ⟨fin_of_image (LibFiniteEntries.real_of_all_abs_lt a0 _ (fun i => GcnHost.splat_const_apply _ _ _ i) _ _ _ _ h1),
    fin_of_image (LibFiniteEntries.real_of_all_abs_lt a2 _ (fun i => GcnHost.splat_const_apply _ _ _ i) _ _ _ _ h2),
    fin_of_image (LibFiniteEntries.real_of_all_abs_lt a3 _ (fun i => GcnHost.splat_const_apply _ _ _ i) _ _ _ _ h3),
    fin_of_image (LibFiniteEntries.real_of_all_abs_lt a4 _ (fun i => GcnHost.splat_const_apply _ _ _ i) _ _ _ _ h4),
    fin_of_image (LibFiniteEntries.real_of_all_abs_lt a5 _ (fun i => GcnHost.splat_const_apply _ _ _ i) _ _ _ _ h5)⟩

end Cert.Pre_finite_inputs.GcnFinite

end
-- ==== Proof.lean ====
/-
  A two-layer graph convolution with self loops, computed two ways, agrees entry by entry on the extended reals
  when every float input is a real number.

  The reference joins one self loop per node to the edge list, normalises every entry of the joined list by
  1/sqrt(deg(source))·1/sqrt(deg(target)), and per layer gathers the dense rows at the sources, weighs them and sums
  them at the targets.  The kernel counts degrees over the real edges and adds one, scales every dense row by its own
  factor inside a pipelined region, sums the scaled source rows along the real edges on the host, and in the next
  region adds the node's own scaled row and scales the total by the node's factor (then bias, and after the first
  layer the clip at zero and the second dense product).  The self-loop part of the reference's sums is a single term,
  an edge that lands on a node has that node as its target, and the target's factor distributes over a finite sum of
  real numbers: that is the whole bridge.  Changes of float format and the order of a sum do not matter at exact
  arithmetic.  No operation was rewritten between the kernel as printed and its idealization.
-/
import proofs.«129970_j1520418423297_2_alg».proof.Defs
import proofs.«129970_j1520418423297_2_alg».proof.Proof.Gen.Kernel
import proofs.«129970_j1520418423297_2_alg».proof.Proof.Gen.Kernel.Skeleton
import proofs.«129970_j1520418423297_2_alg».proof.Proof.Gen.Kernel.Launch
import proofs.«129970_j1520418423297_2_alg».proof.Proof.Gen.Kernel.Points
import proofs.«129970_j1520418423297_2_alg».proof.Proof.Gen.Kernel.Frame
import proofs.«129970_j1520418423297_2_alg».proof.Proof.Gen.KernelIdeal
import proofs.«129970_j1520418423297_2_alg».proof.Proof.Gen.KernelIdeal.Skeleton
import proofs.«129970_j1520418423297_2_alg».proof.Proof.Gen.KernelIdeal.Launch
import proofs.«129970_j1520418423297_2_alg».proof.Proof.Gen.KernelIdeal.Points
import proofs.«129970_j1520418423297_2_alg».proof.Proof.Gen.KernelIdeal.Frame
import proofs.«129970_j1520418423297_2_alg».proof.Proof.Gen.ReferenceIdeal
import proofs.«129970_j1520418423297_2_alg».proof.Proof.Gen.Pre_finite_inputs
import proofs.«129970_j1520418423297_2_alg».proof.Proof.Gen.ReferenceIdeal.Run
import proofs.«129970_j1520418423297_2_alg».proof.Proof.Gen.ReferenceIdeal.Read
import proofs.«129970_j1520418423297_2_alg».proof.Proof.KernelRun
import proofs.«129970_j1520418423297_2_alg».proof.Proof.KernelValue
import proofs.«129970_j1520418423297_2_alg».proof.Proof.KernelEntry
import proofs.«129970_j1520418423297_2_alg».proof.Proof.ReferenceValue
import proofs.«129970_j1520418423297_2_alg».proof.Proof.FiniteInputs
import proofs.«129970_j1520418423297_2_alg».proof.Proof.GcnSpec
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The three programs run and keep their arguments -/

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-! ## The two results are one function of the arguments -/

/-- Both programs cut the same source and target words out of the edge table. -/
theorem src_same (E : Cert.KernelIdeal.S800000x2.Idx → BitVec 32) :
    Cert.ReferenceIdeal.Read.val_main_v3 (F := Ideal) E = Cert.KernelIdeal.GcnStages.srcOf E := rfl

theorem dst_same (E : Cert.KernelIdeal.S800000x2.Idx → BitVec 32) :
    Cert.ReferenceIdeal.Read.val_main_v6 (F := Ideal) E = Cert.KernelIdeal.GcnStages.dstOf E := rfl

/-- Under the precondition the reference's result array is the kernel's, entry by entry: the first is arrangement R
    of the specification, the second arrangement K, and the two arrangements agree on real entries. -/
theorem results_agree (X : Cert.KernelIdeal.S50000x128.Idx → EReal) (E : Cert.KernelIdeal.S800000x2.Idx → BitVec 32)
    (W1 : Cert.KernelIdeal.S128x128.Idx → EReal) (b1 : Cert.KernelIdeal.S128.Idx → EReal)
    (W2 : Cert.KernelIdeal.S128x64.Idx → EReal) (b2 : Cert.KernelIdeal.S64.Idx → EReal)
    (hpre : Cert.Pre_finite_inputs.fn (F := Ideal) X E W1 b1 W2 b2 = fun _ => 1#1) :
    Cert.ReferenceIdeal.Read.val_main_v66 (F := Ideal) X E W1 b1 W2 b2 = Cert.KernelIdeal.GcnEntry.result X E W1 b1 W2 b2 := by
  obtain ⟨hX, hW1, hb1, hW2, hb2⟩ := Cert.Pre_finite_inputs.GcnFinite.all_real X E W1 b1 W2 b2 hpre
  funext idx
  obtain ⟨i, j, rfl⟩ : ∃ (i : Fin 50000) (j : Fin 64), idx = ix2 i j := ⟨idx 0, idx 1, eq_ix2 idx⟩
  rw [Cert.ReferenceIdeal.GcnValue.result_apply, Cert.KernelIdeal.GcnEntry.result_apply]
  show GcnSpec.outR (fun e => Cert.ReferenceIdeal.Read.val_main_v3 (F := Ideal) E (ix1 e))
      (fun e => Cert.ReferenceIdeal.Read.val_main_v6 (F := Ideal) E (ix1 e)) _ _ _ _ _ i j = _
  rw [src_same, dst_same]
  exact GcnSpec.arrangements_agree _ _ _ _ _ _ _ (fun i l => hX _) (fun l k => hW1 _) (fun k => hb1 _)
    (fun k j => hW2 _) i j

/-! ## The claims -/

/-- The idealized kernel's run with its result at the kernel's function of the argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v42)
          = Cert.KernelIdeal.GcnEntry.result
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun r h c => ⟨(h c).1.trans (Cert.KernelIdeal.GcnValue.W6_result m ρ c), (h c).2⟩)
    (Cert.KernelIdeal.GcnRun.run_result m ρ)

/-- From memories agreeing on the arguments both idealized programs run and end with equal results. -/
theorem algebraic : Cert.algebraic_KernelIdeal_ReferenceIdeal := by
  intro m ρ m' ρ' hpre hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v66_eq, (hagree c).1, (hagree c).2.1, (hagree c).2.2.1, (hagree c).2.2.2.1,
    (hagree c).2.2.2.2.1, (hagree c).2.2.2.2.2]
  exact results_agree _ _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
